-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x39 : Shape := ⟨2, ![8192, 39]⟩
abbrev S1000000x16 : Shape := ⟨2, ![1000000, 16]⟩
abbrev S741x1 : Shape := ⟨2, ![741, 1]⟩
abbrev S1000000 : Shape := ⟨1, ![1000000]⟩
abbrev S_ : Shape := ⟨0, ![]⟩

class Facts : Prop where
  bcast_S_S1000000x16 : S_.BroadcastsInDim S1000000x16 (![] : Fin 0 → Fin S1000000x16.rank)
  reducesTo_S1000000x16_S_d0_1 : S1000000x16.ReducesTo [0, 1] S_
  h_S_ : 0 < S_.numel
  bcast_S_S741x1 : S_.BroadcastsInDim S741x1 (![] : Fin 0 → Fin S741x1.rank)
  reducesTo_S741x1_S_d0_1 : S741x1.ReducesTo [0, 1] S_
  bcast_S_S1000000 : S_.BroadcastsInDim S1000000 (![] : Fin 0 → Fin S1000000.rank)
  reducesTo_S1000000_S_d0 : S1000000.ReducesTo [0] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : IVec S8192x39 32) (main_arg1 : FVec F S1000000x16 .f32) (main_arg2 : FVec F S741x1 .f32) (main_arg3 : FVec F S1000000 .f32) (main_arg4 : FVec F S_ .f32) : IVec S_ 1 :=
  let main_v0 : FVec F S1000000x16 .f32 := Host.absf main_arg1
  let main_cst : FVec F S_ .f32 := constant S_ .f32 0x7F800000#32
  let main_v1 : FVec F S1000000x16 .f32 := broadcastInDim S1000000x16 ![] bcast_S_S1000000x16 main_cst
  let main_v2 : IVec S1000000x16 1 := cmpf .olt main_v0 main_v1
  let main_c : IVec S_ 1 := constantI S_ 1 1#1
  let main_v3 : IVec S_ 1 := (fun x v => Host.reduce IntOp.andi x v reducesTo_S1000000x16_S_d0_1 h_S_) main_v2 main_c
  let main_v4 : FVec F S741x1 .f32 := Host.absf main_arg2
  let main_cst_0 : FVec F S_ .f32 := constant S_ .f32 0x7F800000#32
  let main_v5 : FVec F S741x1 .f32 := broadcastInDim S741x1 ![] bcast_S_S741x1 main_cst_0
  let main_v6 : IVec S741x1 1 := cmpf .olt main_v4 main_v5
  let main_c_1 : IVec S_ 1 := constantI S_ 1 1#1
  let main_v7 : IVec S_ 1 := (fun x v => Host.reduce IntOp.andi x v reducesTo_S741x1_S_d0_1 h_S_) main_v6 main_c_1
  let main_v8 : IVec S_ 1 := andi main_v3 main_v7
  let main_v9 : FVec F S1000000 .f32 := Host.absf main_arg3
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S_ .f32 := Host.absf main_arg4
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S8192x39 : Shape := ⟨2, ![8192, 39]⟩
abbrev S1000000x16 : Shape := ⟨2, ![1000000, 16]⟩
abbrev S741x1 : Shape := ⟨2, ![741, 1]⟩
abbrev S1000000 : Shape := ⟨1, ![1000000]⟩
abbrev S_ : Shape := ⟨0, ![]⟩
abbrev S741x2 : Shape := ⟨2, ![741, 2]⟩
abbrev S8192x39x1 : Shape := ⟨3, ![8192, 39, 1]⟩
abbrev S8192x39x16 : Shape := ⟨3, ![8192, 39, 16]⟩
abbrev S8192 : Shape := ⟨1, ![8192]⟩
abbrev S8192x1 : Shape := ⟨2, ![8192, 1]⟩
abbrev S39x39 : Shape := ⟨2, ![39, 39]⟩
abbrev S741 : Shape := ⟨1, ![741]⟩
abbrev S256x39x16 : Shape := ⟨3, ![256, 39, 16]⟩
abbrev S256x1 : Shape := ⟨2, ![256, 1]⟩
abbrev S256x39x39 : Shape := ⟨3, ![256, 39, 39]⟩
abbrev S1x39x39 : Shape := ⟨3, ![1, 39, 39]⟩
abbrev S256x39 : Shape := ⟨2, ![256, 39]⟩
abbrev S256 : Shape := ⟨1, ![256]⟩

abbrev nBuf : Space → Nat
  | .hbm => 55
  | .vmem => 7
  | .smem => 0
  | _ => 0

abbrev bufTy : (tb : Table) → Fin (tcTables nBuf tb) → BufTy
  | .hbm, ⟨0, _⟩ => ⟨S8192x39, .i32⟩
  | .hbm, ⟨1, _⟩ => ⟨S1000000x16, .f32⟩
  | .hbm, ⟨2, _⟩ => ⟨S741x1, .f32⟩
  | .hbm, ⟨3, _⟩ => ⟨S1000000, .f32⟩
  | .hbm, ⟨4, _⟩ => ⟨S_, .f32⟩
  | .hbm, ⟨5, _⟩ => ⟨S741x2, .i32⟩
  | .hbm, ⟨6, _⟩ => ⟨S_, .i32⟩
  | .hbm, ⟨7, _⟩ => ⟨S8192x39, .i32⟩
  | .hbm, ⟨8, _⟩ => ⟨S8192x39, .i1⟩
  | .hbm, ⟨9, _⟩ => ⟨S_, .i32⟩
  | .hbm, ⟨10, _⟩ => ⟨S8192x39, .i32⟩
  | .hbm, ⟨11, _⟩ => ⟨S8192x39, .i32⟩
  | .hbm, ⟨12, _⟩ => ⟨S8192x39, .i32⟩
  | .hbm, ⟨13, _⟩ => ⟨S8192x39x1, .i32⟩
  | .hbm, ⟨14, _⟩ => ⟨S8192x39x16, .f32⟩
  | .hbm, ⟨15, _⟩ => ⟨S_, .i32⟩
  | .hbm, ⟨16, _⟩ => ⟨S8192x39, .i32⟩
  | .hbm, ⟨17, _⟩ => ⟨S8192x39, .i1⟩
  | .hbm, ⟨18, _⟩ => ⟨S_, .i32⟩
  | .hbm, ⟨19, _⟩ => ⟨S8192x39, .i32⟩
  | .hbm, ⟨20, _⟩ => ⟨S8192x39, .i32⟩
  | .hbm, ⟨21, _⟩ => ⟨S8192x39, .i32⟩
  | .hbm, ⟨22, _⟩ => ⟨S8192x39x1, .i32⟩
  | .hbm, ⟨23, _⟩ => ⟨S8192x39, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S39x39, .f32⟩
  | .hbm, ⟨29, _⟩ => ⟨S741x1, .i32⟩
  | .hbm, ⟨30, _⟩ => ⟨S741, .i32⟩
  | .hbm, ⟨31, _⟩ => ⟨S741x1, .i32⟩
  | .hbm, ⟨32, _⟩ => ⟨S741, .i32⟩
  | .hbm, ⟨33, _⟩ => ⟨S741, .f32⟩
  | .hbm, ⟨34, _⟩ => ⟨S_, .i32⟩
  | .hbm, ⟨35, _⟩ => ⟨S741, .i32⟩
  | .hbm, ⟨36, _⟩ => ⟨S741, .i1⟩
  | .hbm, ⟨37, _⟩ => ⟨S_, .i32⟩
  | .hbm, ⟨38, _⟩ => ⟨S741, .i32⟩
  | .hbm, ⟨39, _⟩ => ⟨S741, .i32⟩
  | .hbm, ⟨40, _⟩ => ⟨S741, .i32⟩
  | .hbm, ⟨41, _⟩ => ⟨S_, .i32⟩
  | .hbm, ⟨42, _⟩ => ⟨S741, .i32⟩
  | .hbm, ⟨43, _⟩ => ⟨S741, .i1⟩
  | .hbm, ⟨44, _⟩ => ⟨S_, .i32⟩
  | .hbm, ⟨45, _⟩ => ⟨S741, .i32⟩
  | .hbm, ⟨46, _⟩ => ⟨S741, .i32⟩
  | .hbm, ⟨47, _⟩ => ⟨S741, .i32⟩
  | .hbm, ⟨48, _⟩ => ⟨S741x1, .i32⟩
  | .hbm, ⟨49, _⟩ => ⟨S741x1, .i32⟩
  | .hbm, ⟨50, _⟩ => ⟨S741x2, .i32⟩
  | .hbm, ⟨51, _⟩ => ⟨S39x39, .f32⟩
  | .hbm, ⟨52, _⟩ => ⟨S8192x1, .f32⟩
  | .hbm, ⟨53, _⟩ => ⟨S8192x1, .f32⟩
  | .hbm, ⟨54, _⟩ => ⟨S8192x1, .f32⟩
  | .local _ .vmem, ⟨0, _⟩ => ⟨S256x39x16, .f32⟩
  | .local _ .vmem, ⟨1, _⟩ => ⟨S256x39x16, .f32⟩
  | .local _ .vmem, ⟨2, _⟩ => ⟨S256x1, .f32⟩
  | .local _ .vmem, ⟨3, _⟩ => ⟨S256x1, .f32⟩
  | .local _ .vmem, ⟨4, _⟩ => ⟨S39x39, .f32⟩
  | .local _ .vmem, ⟨5, _⟩ => ⟨S256x1, .f32⟩
  | .local _ .vmem, ⟨6, _⟩ => ⟨S256x1, .f32⟩
  | _, _ => ⟨S8192x39, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_7 : Ref sig .tc := ⟨.hbm, 41, rfl⟩
abbrev main_v27 : Ref sig .tc := ⟨.hbm, 42, rfl⟩
abbrev main_v28 : Ref sig .tc := ⟨.hbm, 43, rfl⟩
abbrev main_c_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x39x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S39x39 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S8192x39 : S_.BroadcastsInDim S8192x39 (![] : Fin 0 → Fin S8192x39.rank)
  bcast_S8192x39_S8192x39x1_0_1 : S8192x39.BroadcastsInDim S8192x39x1 (![0, 1] : Fin 2 → Fin S8192x39x1.rank)
  reducesTo_S8192x39_S8192_d1 : S8192x39.ReducesTo [1] S8192
  h_S_ : 0 < S_.numel
  bcast_S8192_S8192x1_0 : S8192.BroadcastsInDim S8192x1 (![0] : Fin 1 → Fin S8192x1.rank)
  bcast_S_S39x39 : S_.BroadcastsInDim S39x39 (![] : Fin 0 → Fin S39x39.rank)
  slices_S741x2_S741x1_0_0 : S741x2.Slices ![0, 0] S741x1
  shapeCasts_S741x1_S741 : S741x1.ShapeCasts S741
  slices_S741x2_S741x1_0_1 : S741x2.Slices ![0, 1] S741x1
  bcast_S_S741 : S_.BroadcastsInDim S741 (![] : Fin 0 → Fin S741.rank)
  bcast_S741_S741x1_0 : S741.BroadcastsInDim S741x1 (![0] : Fin 1 → Fin S741x1.rank)
  concatenates_S741x1_S741x1_S741x2_d1 : Shape.Concatenates [S741x1, S741x1] S741x2 1
  inb_S256x39x16_S256x39x16_0_0_0 : ∀ a, (![0, 0, 0] : Fin 3 → Nat) a + S256x39x16.size a ≤ S256x39x16.size a
  h_S256x39x16 : 0 < S256x39x16.numel
  shapeCasts_S256x39x16_S256x39x16 : S256x39x16.ShapeCasts S256x39x16
  bitsLt_bf16_f32 : FTy.bits .bf16 < FTy.bits .f32
  inb_S39x39_S39x39_0_0 : ∀ a, (![0, 0] : Fin 2 → Nat) a + S39x39.size a ≤ S39x39.size a
  h_S39x39 : 0 < S39x39.numel
  shapeCasts_S39x39_S39x39 : S39x39.ShapeCasts S39x39
  shapeCasts_S39x39_S1x39x39 : S39x39.ShapeCasts S1x39x39
  broadcasts_S1x39x39_S256x39x39 : S1x39x39.Broadcasts S256x39x39
  reduces_S256x39x39_S256x39 : S256x39x39.Reduces [2] S256x39
  reduces_S256x39_S256 : S256x39.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  bcast_S_S8192x1 : S_.BroadcastsInDim S8192x1 (![] : Fin 0 → Fin S8192x1.rank)
  gather_S1000000x16_S8192x39x1_S8192x39x16_2_0_n_n_0_2_116_wf : GatherDims.WF S1000000x16 S8192x39x1 S8192x39x16 [2] [0] [] [0] [] 2 ![1, 16]
  gather_S1000000_S8192x39x1_S8192x39_n_0_n_n_0_2_1_wf : GatherDims.WF S1000000 S8192x39x1 S8192x39 [] [0] [] [0] [] 2 ![1]
  scatter_S39x39_S741x2_S741_n_01_01_1_wf : ScatterDims.WF S39x39 S741x2 S741 [] [0, 1] [0, 1] 1
  dot_S256x39x16_S256x39x16_S256x39x39_2_2_1_1_0_0_wf : DotDims.WF S256x39x16 S256x39x16 S256x39x39 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x39x16.size a ≤ S8192x39x16.size a
  hwx0_0 : ∀ i : grid0.Coords, EltTy.bits .f32 = 32 ∨ (Rect.block (s := S8192x39x16) S256x39x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .f32 = 32 ∨ (Rect.block (s := S8192x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S39x39.size a ≤ S39x39.size a
  hwx0_2 : ∀ i : grid0.Coords, EltTy.bits .f32 = 32 ∨ (Rect.block (s := S39x39) S39x39.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)

variable [Facts₀]

def gather_S1000000x16_S8192x39x1_S8192x39x16_2_0_n_n_0_2_116 : GatherDims S1000000x16 S8192x39x1 S8192x39x16 where
  offsetDims := [2]
  collapsedSliceDims := [0]
  operandBatchingDims := []
  startIndicesBatchingDims := []
  startIndexMap := [0]
  indexVectorDim := 2
  sliceSizes := ![1, 16]
  wf := gather_S1000000x16_S8192x39x1_S8192x39x16_2_0_n_n_0_2_116_wf
def gather_S1000000_S8192x39x1_S8192x39_n_0_n_n_0_2_1 : GatherDims S1000000 S8192x39x1 S8192x39 where
  offsetDims := []
  collapsedSliceDims := [0]
  operandBatchingDims := []
  startIndicesBatchingDims := []
  startIndexMap := [0]
  indexVectorDim := 2
  sliceSizes := ![1]
  wf := gather_S1000000_S8192x39x1_S8192x39_n_0_n_n_0_2_1_wf
def scatter_S39x39_S741x2_S741_n_01_01_1 : ScatterDims S39x39 S741x2 S741 where
  updateWindowDims := []
  insertedWindowDims := [0, 1]
  scatterDimsToOperandDims := [0, 1]
  indexVectorDim := 1
  wf := scatter_S39x39_S741x2_S741_n_01_01_1_wf
def dot_S256x39x16_S256x39x16_S256x39x39_2_2_1_1_0_0 : DotDims S256x39x16 S256x39x16 S256x39x39 where
  lhsContracting := [2]
  rhsContracting := [2]
  lhsNonContracting := [1]
  rhsNonContracting := [1]
  lhsBatch := [0]
  rhsBatch := [0]
  wf := dot_S256x39x16_S256x39x16_S256x39x39_2_2_1_1_0_0_wf

abbrev win0_0 : Pipeline.Window sig grid0 :=
  Pipeline.Window.ofSpec (Memref.whole main_v6) S256x39x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S39x39.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x39 : Shape := ⟨2, ![8192, 39]⟩
abbrev S1000000x16 : Shape := ⟨2, ![1000000, 16]⟩
abbrev S741x1 : Shape := ⟨2, ![741, 1]⟩
abbrev S1000000 : Shape := ⟨1, ![1000000]⟩
abbrev S_ : Shape := ⟨0, ![]⟩
abbrev S741x2 : Shape := ⟨2, ![741, 2]⟩
abbrev S8192x39x1 : Shape := ⟨3, ![8192, 39, 1]⟩
abbrev S8192 : Shape := ⟨1, ![8192]⟩
abbrev S8192x1 : Shape := ⟨2, ![8192, 1]⟩
abbrev S8192x39x16 : Shape := ⟨3, ![8192, 39, 16]⟩
abbrev S741 : Shape := ⟨1, ![741]⟩
abbrev S8192x741x16 : Shape := ⟨3, ![8192, 741, 16]⟩
abbrev S8192x741 : Shape := ⟨2, ![8192, 741]⟩

abbrev nBuf : Space → Nat
  | .hbm => 59
  | .vmem => 0
  | .smem => 0
  | _ => 0

abbrev bufTy : (tb : Table) → Fin (tcTables nBuf tb) → BufTy
  | .hbm, ⟨0, _⟩ => ⟨S8192x39, .i32⟩
  | .hbm, ⟨1, _⟩ => ⟨S1000000x16, .f32⟩
  | .hbm, ⟨2, _⟩ => ⟨S741x1, .f32⟩
  | .hbm, ⟨3, _⟩ => ⟨S1000000, .f32⟩
  | .hbm, ⟨4, _⟩ => ⟨S_, .f32⟩
  | .hbm, ⟨5, _⟩ => ⟨S741x2, .i32⟩
  | .hbm, ⟨6, _⟩ => ⟨S_, .i32⟩
  | .hbm, ⟨7, _⟩ => ⟨S8192x39, .i32⟩
  | .hbm, ⟨8, _⟩ => ⟨S8192x39, .i1⟩
  | .hbm, ⟨9, _⟩ => ⟨S_, .i32⟩
  | .hbm, ⟨10, _⟩ => ⟨S8192x39, .i32⟩
  | .hbm, ⟨11, _⟩ => ⟨S8192x39, .i32⟩
  | .hbm, ⟨12, _⟩ => ⟨S8192x39, .i32⟩
  | .hbm, ⟨13, _⟩ => ⟨S8192x39x1, .i32⟩
  | .hbm, ⟨14, _⟩ => ⟨S8192x39, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .i32⟩
  | .hbm, ⟨23, _⟩ => ⟨S8192x39, .i32⟩
  | .hbm, ⟨24, _⟩ => ⟨S8192x39, .i1⟩
  | .hbm, ⟨25, _⟩ => ⟨S_, .i32⟩
  | .hbm, ⟨26, _⟩ => ⟨S8192x39, .i32⟩
  | .hbm, ⟨27, _⟩ => ⟨S8192x39, .i32⟩
  | .hbm, ⟨28, _⟩ => ⟨S8192x39, .i32⟩
  | .hbm, ⟨29, _⟩ => ⟨S8192x39x1, .i32⟩
  | .hbm, ⟨30, _⟩ => ⟨S8192x39x16, .f32⟩
  | .hbm, ⟨31, _⟩ => ⟨S741x1, .i32⟩
  | .hbm, ⟨32, _⟩ => ⟨S741, .i32⟩
  | .hbm, ⟨33, _⟩ => ⟨S_, .i32⟩
  | .hbm, ⟨34, _⟩ => ⟨S741, .i32⟩
  | .hbm, ⟨35, _⟩ => ⟨S741, .i1⟩
  | .hbm, ⟨36, _⟩ => ⟨S_, .i32⟩
  | .hbm, ⟨37, _⟩ => ⟨S741, .i32⟩
  | .hbm, ⟨38, _⟩ => ⟨S741, .i32⟩
  | .hbm, ⟨39, _⟩ => ⟨S741, .i32⟩
  | .hbm, ⟨40, _⟩ => ⟨S741x1, .i32⟩
  | .hbm, ⟨41, _⟩ => ⟨S8192x741x16, .f32⟩
  | .hbm, ⟨42, _⟩ => ⟨S741x1, .i32⟩
  | .hbm, ⟨43, _⟩ => ⟨S741, .i32⟩
  | .hbm, ⟨44, _⟩ => ⟨S_, .i32⟩
  | .hbm, ⟨45, _⟩ => ⟨S741, .i32⟩
  | .hbm, ⟨46, _⟩ => ⟨S741, .i1⟩
  | .hbm, ⟨47, _⟩ => ⟨S_, .i32⟩
  | .hbm, ⟨48, _⟩ => ⟨S741, .i32⟩
  | .hbm, ⟨49, _⟩ => ⟨S741, .i32⟩
  | .hbm, ⟨50, _⟩ => ⟨S741, .i32⟩
  | .hbm, ⟨51, _⟩ => ⟨S741x1, .i32⟩
  | .hbm, ⟨52, _⟩ => ⟨S8192x741x16, .f32⟩
  | .hbm, ⟨53, _⟩ => ⟨S8192x741x16, .f32⟩
  | .hbm, ⟨54, _⟩ => ⟨S_, .f32⟩
  | .hbm, ⟨55, _⟩ => ⟨S8192x741, .f32⟩
  | .hbm, ⟨56, _⟩ => ⟨S8192x1, .f32⟩
  | .hbm, ⟨57, _⟩ => ⟨S8192x1, .f32⟩
  | .hbm, ⟨58, _⟩ => ⟨S8192x1, .f32⟩
  | _, _ => ⟨S8192x39, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_7 : Ref sig .tc := ⟨.hbm, 44, rfl⟩
abbrev main_v30 : Ref sig .tc := ⟨.hbm, 45, rfl⟩
abbrev main_v31 : Ref sig .tc := ⟨.hbm, 46, rfl⟩
abbrev main_c_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]

class Facts₀ : Prop where
  bcast_S_S8192x39 : S_.BroadcastsInDim S8192x39 (![] : Fin 0 → Fin S8192x39.rank)
  bcast_S8192x39_S8192x39x1_0_1 : S8192x39.BroadcastsInDim S8192x39x1 (![0, 1] : Fin 2 → Fin S8192x39x1.rank)
  reducesTo_S8192x39_S8192_d1 : S8192x39.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  slices_S741x2_S741x1_0_0 : S741x2.Slices ![0, 0] S741x1
  shapeCasts_S741x1_S741 : S741x1.ShapeCasts S741
  bcast_S_S741 : S_.BroadcastsInDim S741 (![] : Fin 0 → Fin S741.rank)
  bcast_S741_S741x1_0 : S741.BroadcastsInDim S741x1 (![0] : Fin 1 → Fin S741x1.rank)
  slices_S741x2_S741x1_0_1 : S741x2.Slices ![0, 1] S741x1
  reducesTo_S8192x741x16_S8192x741_d2 : S8192x741x16.ReducesTo [2] S8192x741
  gather_S1000000_S8192x39x1_S8192x39_n_0_n_n_0_2_1_wf : GatherDims.WF S1000000 S8192x39x1 S8192x39 [] [0] [] [0] [] 2 ![1]
  gather_S1000000x16_S8192x39x1_S8192x39x16_2_0_n_n_0_2_116_wf : GatherDims.WF S1000000x16 S8192x39x1 S8192x39x16 [2] [0] [] [0] [] 2 ![1, 16]
  gather_S8192x39x16_S741x1_S8192x741x16_02_1_n_n_1_1_8192116_wf : GatherDims.WF S8192x39x16 S741x1 S8192x741x16 [0, 2] [1] [] [1] [] 1 ![8192, 1, 16]
  dot_S8192x741_S741x1_S8192x1_1_0_0_1_n_n_wf : DotDims.WF S8192x741 S741x1 S8192x1 [1] [0] [0] [1] [] []

variable [Facts₀]

def gather_S1000000_S8192x39x1_S8192x39_n_0_n_n_0_2_1 : GatherDims S1000000 S8192x39x1 S8192x39 where
  offsetDims := []
  collapsedSliceDims := [0]
  operandBatchingDims := []
  startIndicesBatchingDims := []
  startIndexMap := [0]
  indexVectorDim := 2
  sliceSizes := ![1]
  wf := gather_S1000000_S8192x39x1_S8192x39_n_0_n_n_0_2_1_wf
def gather_S1000000x16_S8192x39x1_S8192x39x16_2_0_n_n_0_2_116 : GatherDims S1000000x16 S8192x39x1 S8192x39x16 where
  offsetDims := [2]
  collapsedSliceDims := [0]
  operandBatchingDims := []
  startIndicesBatchingDims := []
  startIndexMap := [0]
  indexVectorDim := 2
  sliceSizes := ![1, 16]
  wf := gather_S1000000x16_S8192x39x1_S8192x39x16_2_0_n_n_0_2_116_wf
def gather_S8192x39x16_S741x1_S8192x741x16_02_1_n_n_1_1_8192116 : GatherDims S8192x39x16 S741x1 S8192x741x16 where
  offsetDims := [0, 2]
  collapsedSliceDims := [1]
  operandBatchingDims := []
  startIndicesBatchingDims := []
  startIndexMap := [1]
  indexVectorDim := 1
  sliceSizes := ![8192, 1, 16]
  wf := gather_S8192x39x16_S741x1_S8192x741x16_02_1_n_n_1_1_8192116_wf
def dot_S8192x741_S741x1_S8192x1_1_0_0_1_n_n : DotDims S8192x741 S741x1 S8192x1 where
  lhsContracting := [1]
  rhsContracting := [0]
  lhsNonContracting := [0]
  rhsNonContracting := [1]
  lhsBatch := []
  rhsBatch := []
  wf := dot_S8192x741_S741x1_S8192x1_1_0_0_1_n_n_wf

class Facts : Prop extends Facts₀ where

variable [Facts]
-- ==== Proof.KTerm.lean ====
/-
  The first program's host operations as named stages, each a pure function of the argument arrays: the gathered field
  vectors, the first-order column, the table of pairs and its two columns, the 39 x 39 weight matrix that holds each
  learned weight in its pair's slot, and the bias column added after the blocks are computed.
-/
import proofs.«127290_j47021301957264_2_alg».proof.Proof.Gen.KernelIdeal

noncomputable section

namespace Cert.KernelIdeal.Term

open Idealize.ShloMosaic Idealize.ShloMosaic.TcCoe Idealize.SL.Sem
open Cert.KernelIdeal Cert.KernelIdeal.Facts₀

variable {F : FTy → Type} [FloatOps F]

/-- A negative row number counts from the end of the table: where the number is negative, the table's length is added. -/
def wrapRows (a0 : (⟨S8192x39, .i32⟩ : BufTy).Contents (Elt F)) : (⟨S8192x39, .i32⟩ : BufTy).Contents (Elt F) :=
  select (cmpi .slt a0 (broadcastInDim S8192x39 ![] bcast_S_S8192x39 (constantI S_ 32 0#32)))
    (addi a0 (broadcastInDim S8192x39 ![] bcast_S_S8192x39 (constantI S_ 32 1000000#32))) a0

/-- The start indices of the two row gathers: the wrapped row numbers with a trailing unit axis. -/
def startRows (a0 : (⟨S8192x39, .i32⟩ : BufTy).Contents (Elt F)) : (⟨S8192x39x1, .i32⟩ : BufTy).Contents (Elt F) :=
  broadcastInDim S8192x39x1 ![0, 1] bcast_S8192x39_S8192x39x1_0_1 (wrapRows a0)

/-- The gathered field vectors: for batch row `b` and field `f`, the embedding table's row named by `a0 (b, f)`. -/
def fieldEmb (a1 : (⟨S1000000x16, .f32⟩ : BufTy).Contents (Elt F)) (a0 : (⟨S8192x39, .i32⟩ : BufTy).Contents (Elt F)) :
    (⟨S8192x39x16, .f32⟩ : BufTy).Contents (Elt F) :=
  Host.gather gather_S1000000x16_S8192x39x1_S8192x39x16_2_0_n_n_0_2_116 a1 (startRows a0)

/-- The first-order column: for batch row `b`, the sum over the fields of the linear weight named by `a0 (b, f)`. -/
def firstOrder (a3 : (⟨S1000000, .f32⟩ : BufTy).Contents (Elt F)) (a0 : (⟨S8192x39, .i32⟩ : BufTy).Contents (Elt F)) :
    (⟨S8192x1, .f32⟩ : BufTy).Contents (Elt F) :=
  broadcastInDim S8192x1 ![0] bcast_S8192_S8192x1_0
    (Host.reduceAdd (Host.gather gather_S1000000_S8192x39x1_S8192x39_n_0_n_n_0_2_1 a3 (startRows a0)) (constant S_ .f32 0x00000000#32)
      reducesTo_S8192x39_S8192_d1 h_S_)

/-- The literal table of the 741 pairs, one pair per row. -/
def pairTable : (⟨S741x2, .i32⟩ : BufTy).Contents (Elt F) := fun i => lit0 (S741x2.rowMajor i)

/-- Column 0 of the table: the first field of each pair. -/
def pairCol0 : (⟨S741, .i32⟩ : BufTy).Contents (Elt F) :=
  shapeCast S741 (extractStridedSlice S741x1 ![0, 0] (pairTable (F := F)) slices_S741x2_S741x1_0_0) shapeCasts_S741x1_S741

/-- Column 1 of the table: the second field of each pair. -/
def pairCol1 : (⟨S741, .i32⟩ : BufTy).Contents (Elt F) :=
  shapeCast S741 (extractStridedSlice S741x1 ![0, 1] (pairTable (F := F)) slices_S741x2_S741x1_0_1) shapeCasts_S741x1_S741

/-- A negative field number counts from the end: where it is negative, 39 is added. -/
def wrapFields (t : (⟨S741, .i32⟩ : BufTy).Contents (Elt F)) : (⟨S741, .i32⟩ : BufTy).Contents (Elt F) :=
  select (cmpi .slt t (broadcastInDim S741 ![] bcast_S_S741 (constantI S_ 32 0#32)))
    (addi t (broadcastInDim S741 ![] bcast_S_S741 (constantI S_ 32 39#32))) t

/-- A wrapped column of field numbers as a 741 x 1 array. -/
def fieldCol (t : (⟨S741, .i32⟩ : BufTy).Contents (Elt F)) : (⟨S741x1, .i32⟩ : BufTy).Contents (Elt F) :=
  broadcastInDim S741x1 ![0] bcast_S741_S741x1_0 (wrapFields t)

/-- The scatter indices: row `k` holds the two (wrapped) field numbers of pair `k`. -/
def pairIdx : (⟨S741x2, .i32⟩ : BufTy).Contents (Elt F) :=
  concatenate S741x2 1 [⟨S741x1, fieldCol (pairCol0 (F := F))⟩, ⟨S741x1, fieldCol (pairCol1 (F := F))⟩] concatenates_S741x1_S741x1_S741x2_d1

/-- The 39 x 39 weight matrix: zeros, with the learned weight of pair `k` written into the slot its two fields name. -/
def pairWeights (a2 : (⟨S741x1, .f32⟩ : BufTy).Contents (Elt F)) : (⟨S39x39, .f32⟩ : BufTy).Contents (Elt F) :=
  Host.scatter scatter_S39x39_S741x2_S741_n_01_01_1 (fun _ b => b) (broadcastInDim S39x39 ![] bcast_S_S39x39 (constant S_ .f32 0x00000000#32))
    (pairIdx (F := F)) (shapeCast S741 a2 shapeCasts_S741x1_S741)

/-- The bias spread over the result column. -/
def biasCol (a4 : (⟨S_, .f32⟩ : BufTy).Contents (Elt F)) : (⟨S8192x1, .f32⟩ : BufTy).Contents (Elt F) :=
  broadcastInDim S8192x1 ![] bcast_S_S8192x1 a4

end Cert.KernelIdeal.Term

end
-- ==== Proof.KHost.lean ====
/-
  What the region finds in its three input arrays, as functions of the argument arrays: the gathered field vectors,
  the first-order column and the 39 x 39 weight matrix are the results of the host operations that precede the region,
  composed.
-/
import proofs.«127290_j47021301957264_2_alg».proof.Proof.Gen.KernelIdeal.Frame
import proofs.«127290_j47021301957264_2_alg».proof.Proof.KTerm
import Idealize.ShloMosaic.Lib.StableHlo.Run

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The first input array of the region holds the gathered field vectors. -/
theorem V_fieldEmb (c : Dev nD) :
    V m c main_v6 = Cert.KernelIdeal.Term.fieldEmb (m ((c.tc : Thread nD τ).loc main_arg1)) (m ((c.tc : Thread nD τ).loc main_arg0)) := by
  show StableHlo.after hostOps0 (fun b => m (c, b)) (Proc.devRef .tc main_v6) = _
  after_results
  rfl

set_option maxHeartbeats 1000000 in
/-- The second input array of the region holds the first-order column. -/
theorem V_firstOrder (c : Dev nD) :
    V m c main_v15 = Cert.KernelIdeal.Term.firstOrder (m ((c.tc : Thread nD τ).loc main_arg3)) (m ((c.tc : Thread nD τ).loc main_arg0)) := by
  show StableHlo.after hostOps0 (fun b => m (c, b)) (Proc.devRef .tc main_v15) = _
  after_results_simp
  rfl

set_option maxHeartbeats 1000000 in
/-- The third input array of the region holds the weight matrix. -/
theorem V_pairWeights (c : Dev nD) :
    V m c main_v35 = Cert.KernelIdeal.Term.pairWeights (m ((c.tc : Thread nD τ).loc main_arg2)) := by
  show StableHlo.after hostOps0 (fun b => m (c, b)) (Proc.devRef .tc main_v35) = _
  after_results_simp
  rfl

end Cert.KernelIdeal.HostValue

end
-- ==== Proof.Spec.lean ====
/-
  The arithmetic of the two programs on the extended reals, and the one law that joins them.

  A batch row holds 39 field vectors of 16 coordinates, `e f d`. The first program forms the whole 39 x 39 matrix of
  inner products `<e f, e g>` and sums it against a weight matrix `W` that holds the learned weight `w k` in the slot of
  the `k`-th pair `i < j` and zero in every other slot. The second program visits only the 741 pairs `i < j`, in
  lexicographic order, and sums `<e i, e j> * w k` over them. The two sums agree because a product with the zero weight is
  zero on the extended reals (also when the inner product is infinite) and because distinct positions name distinct
  pairs, so the nonzero slots of `W` are exactly the listed pairs, each once. No finiteness is needed: only that a
  finite sum on the extended reals may be reindexed and that `x * 0 = 0`.
  To the pair sum both programs add the row's first-order term and the bias; addition on the extended reals is
  commutative and associative, so the order of these two additions does not matter.
-/
import Idealize.ShloMosaic.PureOps.Ideal
import Idealize.ShloMosaic.Lib.ValueIdx

noncomputable section

open scoped BigOperators

namespace Cert.Spec

open Idealize.ShloMosaic Idealize.ShloMosaic.ValueIdx

/-! ## The pairs `i < j < 39` in lexicographic order -/

/-- Row `i` of the triangle holds the `38 - i` pairs `(i, i + 1), …, (i, 38)`. `walk n i k` finds position `k` counted from
    the start of row `i`, looking at no more than `n` further rows. -/
def walk : Nat → Nat → Nat → Nat × Nat
  | 0, i, k => (i, i + 1 + k)
  | n + 1, i, k => if k < 38 - i then (i, i + 1 + k) else walk n (i + 1) (k - (38 - i))

/-- The `k`-th pair, `k < 741`. -/
def pairAt (k : Nat) : Nat × Nat := walk 39 0 k

/-- The position of the pair `(i, j)`, `i < j < 39`: the rows before row `i` hold `38 + 37 + … + (39 - i) = i (77 - i) / 2` pairs. -/
def posOf (i j : Nat) : Nat := i * (77 - i) / 2 + (j - i - 1)

/-- Every listed pair lies in the 39 x 39 square, above the diagonal, and `posOf` recovers its position. -/
theorem pairAt_facts : ∀ k : Fin 741, (pairAt k.val).1 < (pairAt k.val).2 ∧ (pairAt k.val).2 < 39
    ∧ posOf (pairAt k.val).1 (pairAt k.val).2 = k.val := by decide +kernel

theorem pairAt_fst_lt (k : Fin 741) : (pairAt k.val).1 < 39 := Nat.lt_trans (pairAt_facts k).1 (pairAt_facts k).2.1
theorem pairAt_snd_lt (k : Fin 741) : (pairAt k.val).2 < 39 := (pairAt_facts k).2.1

/-- The `k`-th pair as a pair of field numbers. -/
def pairFin (k : Fin 741) : Fin 39 × Fin 39 := (⟨(pairAt k.val).1, pairAt_fst_lt k⟩, ⟨(pairAt k.val).2, pairAt_snd_lt k⟩)

theorem pairFin_fst_val (k : Fin 741) : (pairFin k).1.val = (pairAt k.val).1 := rfl
theorem pairFin_snd_val (k : Fin 741) : (pairFin k).2.val = (pairAt k.val).2 := rfl

/-- Distinct positions name distinct pairs: the position is a function of the pair. -/
theorem pairFin_injective : Function.Injective pairFin := by
  intro k k' h
  have e1 : (pairAt k.val).1 = (pairAt k'.val).1 := congrArg (fun p : Fin 39 × Fin 39 => p.1.val) h
  have e2 : (pairAt k.val).2 = (pairAt k'.val).2 := congrArg (fun p : Fin 39 × Fin 39 => p.2.val) h
  exact Fin.ext (by rw [← (pairAt_facts k).2.2, ← (pairAt_facts k').2.2, e1, e2])

/-! ## The two sums and the law between them -/

section Law
variable {ι κ δ : Type} [Fintype ι] [Fintype κ] [Fintype δ]

/-- The matrix of inner products summed against a weight matrix, over ALL ordered pairs of fields. -/
def gramSum (e : ι → δ → EReal) (W : ι → ι → EReal) : EReal := ∑ f, ∑ g, (∑ d, e f d * e g d) * W f g

/-- The inner products of the listed pairs `p k` summed against one weight per pair. -/
def pairSum (e : ι → δ → EReal) (p : κ → ι × ι) (w : κ → EReal) : EReal := ∑ k, (∑ d, e (p k).1 d * e (p k).2 d) * w k

/-- THE LAW: if the listed pairs are distinct, the weight matrix holds `w k` in the slot of pair `p k` and zero in every
    slot no listed pair names, then the sum over all ordered pairs is the sum over the listed ones. -/
theorem gramSum_eq_pairSum (e : ι → δ → EReal) (p : κ → ι × ι) (hp : Function.Injective p) (w : κ → EReal) (W : ι → ι → EReal)
    (hhit : ∀ k, W (p k).1 (p k).2 = w k) (hmiss : ∀ f g, (∀ k, p k ≠ (f, g)) → W f g = 0) :
    gramSum e W = pairSum e p w := by
  classical
  unfold gramSum pairSum
  rw [← Fintype.sum_prod_type' (f := fun f g => (∑ d, e f d * e g d) * W f g)]
  rw [← Finset.sum_subset (Finset.subset_univ (Finset.univ.image p)) (fun x _ hx => by
    have hW : W x.1 x.2 = 0 := hmiss x.1 x.2 (fun k hk => hx (Finset.mem_image.mpr ⟨k, Finset.mem_univ k, hk⟩))
    rw [hW, mul_zero])]
  rw [Finset.sum_image (fun a _ b _ h => hp h)]
  exact Finset.sum_congr rfl (fun k _ => by rw [hhit k])

end Law

/-! ## One row of the result, and the result -/

/-- Row `b` of the result from the row's field vectors `e`, its first-order term `fo`, the pair weights and the bias. -/
def row (e : Fin 39 → Fin 16 → EReal) (fo : EReal) (fw : Fin 741 → EReal) (bias : EReal) : EReal :=
  (pairSum e pairFin fw + fo) + bias

/-- The same with the three terms added in the other order: bias, first-order term, pair sum. -/
theorem row_comm (e : Fin 39 → Fin 16 → EReal) (fo : EReal) (fw : Fin 741 → EReal) (bias : EReal) :
    (bias + fo) + pairSum e pairFin fw = row e fo fw bias := by
  unfold row
  rw [add_comm bias fo, add_comm (fo + bias), ← add_assoc]

/-- The whole result array from the gathered field vectors `E` (batch row, field, coordinate), the first-order column
    `FO`, the pair weights and the bias. -/
def result (E : (⟨3, ![8192, 39, 16]⟩ : Shape).Idx → EReal) (FO : (⟨2, ![8192, 1]⟩ : Shape).Idx → EReal)
    (fw : (⟨2, ![741, 1]⟩ : Shape).Idx → EReal) (bias : (⟨0, ![]⟩ : Shape).Idx → EReal) :
    (⟨2, ![8192, 1]⟩ : Shape).Idx → EReal :=
  fun i => row (fun f d => E (ix3 (⟨(i 0).val, idx2_lt0 i⟩ : Fin 8192) f d)) (FO (ix2 (⟨(i 0).val, idx2_lt0 i⟩ : Fin 8192) (0 : Fin 1)))
    (fun k => fw (ix2 k (0 : Fin 1))) (bias ix0)

/-- The result before the bias is added, with the pair sum still in its all-pairs form against a weight matrix `W`: what the
    first program's blocks hold. -/
def partial39 (E : (⟨3, ![8192, 39, 16]⟩ : Shape).Idx → EReal) (FO : (⟨2, ![8192, 1]⟩ : Shape).Idx → EReal)
    (W : (⟨2, ![39, 39]⟩ : Shape).Idx → EReal) : (⟨2, ![8192, 1]⟩ : Shape).Idx → EReal :=
  fun i => gramSum (fun (f : Fin 39) (d : Fin 16) => E (ix3 (⟨(i 0).val, idx2_lt0 i⟩ : Fin 8192) f d)) (fun f g => W (ix2 f g))
    + FO (ix2 (⟨(i 0).val, idx2_lt0 i⟩ : Fin 8192) (0 : Fin 1))

end Cert.Spec

end
-- ==== Proof.LibWindowScatter.lean ====
/-
  A whole two-dimensional update written into a larger array at a constant corner.

  The host's scatter with a "set" body (the body returns the update's element) runs over the update's indices in
  row-major order, each one replacing the element it lands on. When distinct update indices land on distinct
  elements the order is immaterial: an element some update index lands on holds that update's element, every
  other element is the operand's. For the dimension numbers of a window scatter — both axes of the update are
  window axes, one index vector `(r0, c0)` names the corner — update index `(p, q)` lands on `(r0 + p, c0 + q)`,
  so the result is the update on the rectangle `[r0, r0 + a) × [c0, c0 + b)` and the operand outside it.
-/
import Idealize.ShloMosaic.PureOps.ShapeOps
import Idealize.ShloMosaic.PureOps.Dims
import Idealize.ShloMosaic.Lib.ValueIdx

noncomputable section

namespace Cert.LibWindowScatter

open Idealize.ShloMosaic Idealize.ShloMosaic.ValueIdx

/-! ## A fold of "set" steps, read at one element -/

section Fold
variable {ι κ α : Type} (g : ι → Option κ) (v : ι → α) (stp : (κ → α) → ι → (κ → α)) (i : κ)
  (H1 : ∀ r n, g n = some i → stp r n i = v n) (H2 : ∀ r n, g n ≠ some i → stp r n i = r i)
include H1 H2

/-- If the element starts at `c` and every step landing on it writes `c`, it ends at `c`. -/
theorem foldl_const (c : α) (hv : ∀ n, g n = some i → v n = c) (l : List ι) :
    ∀ x : κ → α, x i = c → l.foldl stp x i = c := by
  induction l with
  | nil => intro x hx; exact hx
  | cons n t ih =>
    intro x hx
    rw [List.foldl_cons]
    apply ih
    by_cases h : g n = some i
    · rw [H1 x n h]; exact hv n h
    · rw [H2 x n h]; exact hx

/-- If step `n0` of the list lands on the element and every step landing on it writes what `n0` writes, the
    element ends at what `n0` writes. -/
theorem foldl_hit (n0 : ι) (h0 : g n0 = some i) (hv : ∀ n, g n = some i → v n = v n0) (l : List ι) (hm : n0 ∈ l) :
    ∀ x : κ → α, l.foldl stp x i = v n0 := by
  induction l with
  | nil => exact absurd hm List.not_mem_nil
  | cons n t ih =>
    intro x
    rw [List.foldl_cons]
    rcases List.mem_cons.mp hm with rfl | hm'
    · exact foldl_const g v stp i H1 H2 (v n0) hv t _ (H1 x n0 h0)
    · exact ih hm' _
end Fold

/-! ## The host's "set" scatter, read at one element -/

section Scatter
variable {s si u : Shape} {α : Type} {w : Nat} (d : ScatterDims s si u) (x : s.Idx → α) (idx : IVec si w) (upd : u.Idx → α)

/-- One step of the fold at an element it lands on: the update's element. -/
private theorem step_hit (r : s.Idx → α) (n : Fin u.numel) (i : s.Idx) (o : Option s.Idx) (h : o = some i) :
    (match (motive := Option s.Idx → s.Idx → α) o with
      | some i => fun i' => if i' = i then (fun _ b => b) (r i) (upd (u.rowMajor.symm n)) else r i'
      | none => r) i = upd (u.rowMajor.symm n) := by
  subst h
  exact if_pos rfl

/-- One step of the fold at an element it does not land on: unchanged. -/
private theorem step_miss (r : s.Idx → α) (n : Fin u.numel) (i : s.Idx) (o : Option s.Idx) (h : o ≠ some i) :
    (match (motive := Option s.Idx → s.Idx → α) o with
      | some i => fun i' => if i' = i then (fun _ b => b) (r i) (upd (u.rowMajor.symm n)) else r i'
      | none => r) i = r i := by
  cases o with
  | none => rfl
  | some k => exact if_neg (fun e => h (by rw [e]))

/-- An element no update index lands on keeps the operand's value. -/
theorem scatter_set_miss (i : s.Idx) (hmiss : ∀ j : u.Idx, d.resultIdx? j idx ≠ some i) :
    Host.scatter d (fun _ b => b) x idx upd i = x i := by
  unfold Host.scatter
  exact foldl_const (fun n : Fin u.numel => d.resultIdx? (u.rowMajor.symm n) idx) (fun n => upd (u.rowMajor.symm n)) _ i
    (fun r n h => step_hit upd r n i _ h) (fun r n h => step_miss upd r n i _ h)
    (x i) (fun n h => absurd h (hmiss _)) _ x rfl

/-- An element exactly one update index lands on holds that update's element. -/
theorem scatter_set_hit (i : s.Idx) (j0 : u.Idx) (h0 : d.resultIdx? j0 idx = some i)
    (huniq : ∀ j : u.Idx, d.resultIdx? j idx = some i → j = j0) :
    Host.scatter d (fun _ b => b) x idx upd i = upd j0 := by
  unfold Host.scatter
  refine (foldl_hit (fun n : Fin u.numel => d.resultIdx? (u.rowMajor.symm n) idx) (fun n => upd (u.rowMajor.symm n)) _ i
    (fun r n h => step_hit upd r n i _ h) (fun r n h => step_miss upd r n i _ h)
    (u.rowMajor j0) ?_ ?_ (List.finRange u.numel) (List.mem_finRange _) x).trans ?_
  · show d.resultIdx? (u.rowMajor.symm (u.rowMajor j0)) idx = some i
    rw [Equiv.symm_apply_apply]; exact h0
  · intro n h
    show upd (u.rowMajor.symm n) = upd (u.rowMajor.symm (u.rowMajor j0))
    rw [huniq _ h, Equiv.symm_apply_apply]
  · show upd (u.rowMajor.symm (u.rowMajor j0)) = upd j0
    rw [Equiv.symm_apply_apply]
end Scatter

/-! ## The window scatter's dimension numbers -/

/-- The dimension numbers of a scatter of a whole `[a, b]` update into an `[A, B]` operand at one index vector:
    both update axes are window axes, the index vector's two components start operand axes 0 and 1. The side
    condition is a parameter: any record with the same lists is one of these by unfolding. -/
abbrev windowScatter (A B a b : Nat)
    (wf : ScatterDims.WF ⟨2, ![A, B]⟩ ⟨1, ![2]⟩ ⟨2, ![a, b]⟩ [0, 1] [] [0, 1] 0) :
    ScatterDims ⟨2, ![A, B]⟩ ⟨1, ![2]⟩ ⟨2, ![a, b]⟩ where
  updateWindowDims := [0, 1]
  insertedWindowDims := []
  scatterDimsToOperandDims := [0, 1]
  indexVectorDim := 0
  wf := wf

/-- A coordinate inside a window of extent `a` placed at `R0` with `R0 + a ≤ A` is inside the operand. -/
theorem lt_of (R0 a A : ℕ) (hA : R0 + a ≤ A) (p : Fin a) : R0 + p.val < A := by have := p.isLt; omega

section Window
variable {A B a b w : Nat} (wf : ScatterDims.WF ⟨2, ![A, B]⟩ ⟨1, ![2]⟩ ⟨2, ![a, b]⟩ [0, 1] [] [0, 1] 0)
  (idx : IVec ⟨1, ![2]⟩ w)

/-- Component 0 of the index vector starts operand axis 0. -/
theorem start_zero (j : (⟨2, ![a, b]⟩ : Shape).Idx) :
    (windowScatter A B a b wf).start j idx 0 = (idx (ix1 0)).toInt := by
  unfold ScatterDims.start
  rw [dif_pos (show (0 : Fin 2) ∈ (windowScatter A B a b wf).scatterDimsToOperandDims from by simp)]
  refine congrArg (fun t => (idx t).toInt) ?_
  funext b0
  match b0 with
  | ⟨0, _⟩ =>
    unfold ScatterDims.siIdx
    rw [dif_pos rfl]
    exact Fin.ext rfl

/-- Component 1 of the index vector starts operand axis 1. -/
theorem start_one (j : (⟨2, ![a, b]⟩ : Shape).Idx) :
    (windowScatter A B a b wf).start j idx 1 = (idx (ix1 1)).toInt := by
  unfold ScatterDims.start
  rw [dif_pos (show (1 : Fin 2) ∈ (windowScatter A B a b wf).scatterDimsToOperandDims from by simp)]
  refine congrArg (fun t => (idx t).toInt) ?_
  funext b0
  match b0 with
  | ⟨0, _⟩ =>
    unfold ScatterDims.siIdx
    rw [dif_pos rfl]
    exact Fin.ext rfl

/-- The window coordinate on operand axis 0 is the update index's coordinate 0. -/
theorem window_zero (j : (⟨2, ![a, b]⟩ : Shape).Idx) :
    (windowScatter A B a b wf).window j 0 = (j 0).val := by
  unfold ScatterDims.window
  rw [dif_pos (by simp [ScatterDims.sKept, Shape.kept, List.finRange])]
  rfl

/-- The window coordinate on operand axis 1 is the update index's coordinate 1. -/
theorem window_one (j : (⟨2, ![a, b]⟩ : Shape).Idx) :
    (windowScatter A B a b wf).window j 1 = (j 1).val := by
  unfold ScatterDims.window
  rw [dif_pos (by simp [ScatterDims.sKept, Shape.kept, List.finRange])]
  rfl

variable (R0 C0 : ℕ) (h0 : (idx (ix1 0)).toInt = (R0 : ℤ)) (h1 : (idx (ix1 1)).toInt = (C0 : ℤ))
  (hA : R0 + a ≤ A) (hB : C0 + b ≤ B)
include h0 h1 hA hB

/-- WHERE AN UPDATE INDEX LANDS: with the corner `(R0, C0)` and the rectangle inside the operand, update index
    `(p, q)` lands on `(R0 + p, C0 + q)`. -/
theorem resultIdx_eq (p : Fin a) (q : Fin b) :
    (windowScatter A B a b wf).resultIdx? (ix2 p q) idx
      = some (ix2 ⟨R0 + p.val, lt_of R0 a A hA p⟩ ⟨C0 + q.val, lt_of C0 b B hB q⟩) := by
  have hs0 := start_zero wf idx (ix2 p q)
  have hs1 := start_one wf idx (ix2 p q)
  have hw0 : (windowScatter A B a b wf).window (ix2 p q) 0 = p.val := window_zero wf (ix2 p q)
  have hw1 : (windowScatter A B a b wf).window (ix2 p q) 1 = q.val := window_one wf (ix2 p q)
  unfold ScatterDims.resultIdx?
  rw [dif_pos (fun c => by
    match c with
    | ⟨0, _⟩ =>
      show 0 ≤ (windowScatter A B a b wf).start (ix2 p q) idx 0 + ((windowScatter A B a b wf).window (ix2 p q) 0 : ℤ) ∧
        (windowScatter A B a b wf).start (ix2 p q) idx 0 + ((windowScatter A B a b wf).window (ix2 p q) 0 : ℤ) < (A : ℤ)
      rw [hs0, hw0, h0]; have := p.isLt; omega
    | ⟨1, _⟩ =>
      show 0 ≤ (windowScatter A B a b wf).start (ix2 p q) idx 1 + ((windowScatter A B a b wf).window (ix2 p q) 1 : ℤ) ∧
        (windowScatter A B a b wf).start (ix2 p q) idx 1 + ((windowScatter A B a b wf).window (ix2 p q) 1 : ℤ) < (B : ℤ)
      rw [hs1, hw1, h1]; have := q.isLt; omega)]
  refine congrArg some (funext fun c => Fin.ext ?_)
  match c with
  | ⟨0, _⟩ =>
    show ((windowScatter A B a b wf).start (ix2 p q) idx 0 + ((windowScatter A B a b wf).window (ix2 p q) 0 : ℤ)).toNat = R0 + p.val
    rw [hs0, hw0, h0]; omega
  | ⟨1, _⟩ =>
    show ((windowScatter A B a b wf).start (ix2 p q) idx 1 + ((windowScatter A B a b wf).window (ix2 p q) 1 : ℤ)).toNat = C0 + q.val
    rw [hs1, hw1, h1]; omega

variable {α : Type} (x : (⟨2, ![A, B]⟩ : Shape).Idx → α) (upd : (⟨2, ![a, b]⟩ : Shape).Idx → α)

/-- INSIDE THE RECTANGLE the result is the update: at `(R0 + p, C0 + q)` it is the update at `(p, q)`. -/
theorem windowScatter_inside (p : Fin a) (q : Fin b) (i : Fin A) (k : Fin B) (hi : i.val = R0 + p.val) (hk : k.val = C0 + q.val) :
    Host.scatter (windowScatter A B a b wf) (fun _ b => b) x idx upd (ix2 i k) = upd (ix2 p q) := by
  obtain rfl : i = ⟨R0 + p.val, lt_of R0 a A hA p⟩ := Fin.ext hi
  obtain rfl : k = ⟨C0 + q.val, lt_of C0 b B hB q⟩ := Fin.ext hk
  refine scatter_set_hit _ x idx upd _ (ix2 p q) (resultIdx_eq wf idx R0 C0 h0 h1 hA hB p q) ?_
  intro j hj
  obtain ⟨p', q', rfl⟩ : ∃ (p' : Fin a) (q' : Fin b), j = ix2 p' q' := ⟨j 0, j 1, eq_ix2 j⟩
  rw [resultIdx_eq wf idx R0 C0 h0 h1 hA hB p' q'] at hj
  have e := Option.some.inj hj
  have e0 : R0 + p'.val = R0 + p.val := congrArg Fin.val (congrFun e 0)
  have e1 : C0 + q'.val = C0 + q.val := congrArg Fin.val (congrFun e 1)
  rw [show p' = p from Fin.ext (by omega), show q' = q from Fin.ext (by omega)]

/-- OUTSIDE THE RECTANGLE the result is the operand. -/
theorem windowScatter_outside (i : Fin A) (k : Fin B)
    (hout : ¬(R0 ≤ i.val ∧ i.val < R0 + a ∧ C0 ≤ k.val ∧ k.val < C0 + b)) :
    Host.scatter (windowScatter A B a b wf) (fun _ b => b) x idx upd (ix2 i k) = x (ix2 i k) := by
  refine scatter_set_miss _ x idx upd _ ?_
  intro j hj
  obtain ⟨p', q', rfl⟩ : ∃ (p' : Fin a) (q' : Fin b), j = ix2 p' q' := ⟨j 0, j 1, eq_ix2 j⟩
  rw [resultIdx_eq wf idx R0 C0 h0 h1 hA hB p' q'] at hj
  have e := Option.some.inj hj
  have e0 : R0 + p'.val = i.val := congrArg Fin.val (congrFun e 0)
  have e1 : C0 + q'.val = k.val := congrArg Fin.val (congrFun e 1)
  have := p'.isLt; have := q'.isLt
  exact hout ⟨by omega, by omega, by omega, by omega⟩
end Window

end Cert.LibWindowScatter

end
-- ==== Proof.KWeights.lean ====
/-
  The 39 x 39 weight matrix of the first program, read at a slot.

  The matrix starts as zeros; update `k` of the scatter writes the learned weight `a2 (k, 0)` into the slot named by
  row `k` of the index array, whose two entries are the two field numbers of the `k`-th pair `i < j < 39` (read off the
  literal table, wrapped the way a negative number is read, by adding 39: a field number is never negative, so it is kept).
  Distinct positions name distinct pairs, so each slot is written at most once: the slot of pair `k` holds `a2 (k, 0)`
  and a slot no pair names keeps its zero.
-/
import proofs.«127290_j47021301957264_2_alg».proof.Proof.Gen.KernelIdeal
import proofs.«127290_j47021301957264_2_alg».proof.Proof.KTerm
import proofs.«127290_j47021301957264_2_alg».proof.Proof.Spec
import proofs.«127290_j47021301957264_2_alg».proof.Proof.LibWindowScatter
import Idealize.ShloMosaic.Lib.ValueIdx
import Idealize.ShloMosaic.Lib.ValueLayout
import Idealize.ShloMosaic.Lib.IdealHost
import Idealize.ShloMosaic.Lib.Pipeline.Value

noncomputable section

namespace Cert.KernelIdeal.Weights

open Idealize.ShloMosaic Idealize.ShloMosaic.ValueIdx Idealize.SL.Sem
open Cert.KernelIdeal Cert.KernelIdeal.Facts₀

/-! ## Where update `k` lands -/

section Landing
variable {w : Nat} (idx : IVec S741x2 w)

/-- The index array is read, for update `k` and component `c` of its index vector, at `(k, c)`. -/
theorem start_zero (k : Fin 741) :
    scatter_S39x39_S741x2_S741_n_01_01_1.start (ix1 k) idx 0 = (idx (ix2 k (0 : Fin 2))).toInt := by
  unfold ScatterDims.start
  rw [dif_pos (show (0 : Fin 2) ∈ scatter_S39x39_S741x2_S741_n_01_01_1.scatterDimsToOperandDims from by decide)]
  refine congrArg (fun t => (idx t).toInt) ?_
  funext b0
  match b0 with
  | ⟨0, _⟩ => exact Fin.ext rfl
  | ⟨1, _⟩ => exact Fin.ext rfl

theorem start_one (k : Fin 741) :
    scatter_S39x39_S741x2_S741_n_01_01_1.start (ix1 k) idx 1 = (idx (ix2 k (1 : Fin 2))).toInt := by
  unfold ScatterDims.start
  rw [dif_pos (show (1 : Fin 2) ∈ scatter_S39x39_S741x2_S741_n_01_01_1.scatterDimsToOperandDims from by decide)]
  refine congrArg (fun t => (idx t).toInt) ?_
  funext b0
  match b0 with
  | ⟨0, _⟩ => exact Fin.ext rfl
  | ⟨1, _⟩ => exact Fin.ext rfl

/-- Both operand axes are inserted window axes: the window coordinate is zero on each. -/
theorem window_eq (j : S741.Idx) (a : Fin 2) : scatter_S39x39_S741x2_S741_n_01_01_1.window j a = 0 := by
  unfold ScatterDims.window
  rw [dif_neg ((by decide : ∀ a : Fin 2, a ∉ scatter_S39x39_S741x2_S741_n_01_01_1.sKept) a)]

/-- WHERE UPDATE `k` LANDS: if row `k` of the index array reads `(p, q)` with both below 39, on the slot `(p, q)`. -/
theorem resultIdx_eq (k : Fin 741) (p q : Fin 39) (h0 : (idx (ix2 k (0 : Fin 2))).toInt = (p.val : ℤ))
    (h1 : (idx (ix2 k (1 : Fin 2))).toInt = (q.val : ℤ)) :
    scatter_S39x39_S741x2_S741_n_01_01_1.resultIdx? (ix1 k) idx = some (ix2 p q) := by
  have hs0 := start_zero idx k
  have hs1 := start_one idx k
  have hw0 := window_eq (ix1 k) 0
  have hw1 := window_eq (ix1 k) 1
  unfold ScatterDims.resultIdx?
  rw [dif_pos (fun c => by
    match c with
    | ⟨0, _⟩ =>
      show 0 ≤ scatter_S39x39_S741x2_S741_n_01_01_1.start (ix1 k) idx 0 + (scatter_S39x39_S741x2_S741_n_01_01_1.window (ix1 k) 0 : ℤ) ∧
        scatter_S39x39_S741x2_S741_n_01_01_1.start (ix1 k) idx 0 + (scatter_S39x39_S741x2_S741_n_01_01_1.window (ix1 k) 0 : ℤ) < (39 : ℤ)
      rw [hs0, hw0, h0]; have := p.isLt; omega
    | ⟨1, _⟩ =>
      show 0 ≤ scatter_S39x39_S741x2_S741_n_01_01_1.start (ix1 k) idx 1 + (scatter_S39x39_S741x2_S741_n_01_01_1.window (ix1 k) 1 : ℤ) ∧
        scatter_S39x39_S741x2_S741_n_01_01_1.start (ix1 k) idx 1 + (scatter_S39x39_S741x2_S741_n_01_01_1.window (ix1 k) 1 : ℤ) < (39 : ℤ)
      rw [hs1, hw1, h1]; have := q.isLt; omega)]
  refine congrArg some (funext fun c => Fin.ext ?_)
  match c with
  | ⟨0, _⟩ =>
    show (scatter_S39x39_S741x2_S741_n_01_01_1.start (ix1 k) idx 0 + (scatter_S39x39_S741x2_S741_n_01_01_1.window (ix1 k) 0 : ℤ)).toNat = p.val
    rw [hs0, hw0, h0]; omega
  | ⟨1, _⟩ =>
    show (scatter_S39x39_S741x2_S741_n_01_01_1.start (ix1 k) idx 1 + (scatter_S39x39_S741x2_S741_n_01_01_1.window (ix1 k) 1 : ℤ)).toNat = q.val
    rw [hs1, hw1, h1]; omega

end Landing

/-! ## The index array at a row -/

section Index

/-- THE TABLE: the literal holds the `k`-th pair at the flat positions `2k` and `2k + 1`. -/
theorem table : ∀ k : Fin 741, lit0 ⟨2 * k.val, by omega⟩ = BitVec.ofNat 32 (Cert.Spec.pairAt k.val).1
    ∧ lit0 ⟨2 * k.val + 1, by omega⟩ = BitVec.ofNat 32 (Cert.Spec.pairAt k.val).2 := by decide +kernel

/-- A field number as a 32-bit word is not negative, and the word reads back as the number. -/
theorem word : ∀ n : Fin 39, IntOp.cmpi .slt (BitVec.ofNat 32 n.val) 0#32 = 0#1 ∧ (BitVec.ofNat 32 n.val).toInt = (n.val : ℤ) := by
  decide

theorem pairTable_apply (k : Fin 741) (c : Fin 2) :
    Term.pairTable (F := Ideal) (ix2 k c) = lit0 ⟨2 * k.val + c.val, by omega⟩ := by
  unfold Term.pairTable
  refine congrArg lit0 (Fin.ext ?_)
  rw [Shape.rowMajor_val_two]
  show k.val * 2 + c.val = 2 * k.val + c.val
  omega

/-- A 741 x 1 array as a vector of 741. -/
theorem shapeCast_col {α : Type} (x : S741x1.Idx → α) (k : Fin 741) :
    shapeCast S741 x shapeCasts_S741x1_S741 (ix1 k) = x (ix2 k (0 : Fin 1)) :=
  shapeCast_apply x _ (ix1 k) (ix2 k (0 : Fin 1)) (by
    rw [Shape.rowMajor_val_two, Shape.rowMajor_val_one]
    show k.val * 1 + 0 = k.val
    omega)

theorem pairCol0_apply (k : Fin 741) :
    Term.pairCol0 (F := Ideal) (ix1 k) = BitVec.ofNat 32 (Cert.Spec.pairFin k).1.val := by
  unfold Term.pairCol0
  refine (shapeCast_col _ k).trans ?_
  refine (slice2_axis1_apply 0 _ slices_S741x2_S741x1_0_0 k (0 : Fin 1) (0 : Fin 2) rfl).trans ?_
  refine (pairTable_apply k 0).trans ?_
  exact (table k).1

theorem pairCol1_apply (k : Fin 741) :
    Term.pairCol1 (F := Ideal) (ix1 k) = BitVec.ofNat 32 (Cert.Spec.pairFin k).2.val := by
  unfold Term.pairCol1
  refine (shapeCast_col _ k).trans ?_
  refine (slice2_axis1_apply 1 _ slices_S741x2_S741x1_0_1 k (0 : Fin 1) (1 : Fin 2) rfl).trans ?_
  refine (pairTable_apply k 1).trans ?_
  exact (table k).2

/-- A column that holds a field number at `k` keeps it under the wrap. -/
theorem wrapFields_keep (t : IVec S741 32) (k : Fin 741) (n : Fin 39) (h : t (ix1 k) = BitVec.ofNat 32 n.val) :
    Term.wrapFields (F := Ideal) t (ix1 k) = BitVec.ofNat 32 n.val := by
  show Scalar.select (IntOp.cmpi .slt (t (ix1 k)) 0#32) (IntOp.addi (t (ix1 k)) 39#32) (t (ix1 k)) = _
  rw [h, (word n).1, select_zero]

theorem fieldCol_apply (t : IVec S741 32) (k : Fin 741) :
    Term.fieldCol (F := Ideal) t (ix2 k (0 : Fin 1)) = Term.wrapFields (F := Ideal) t (ix1 k) := by
  unfold Term.fieldCol
  exact broadcastInDim_apply ![0] bcast_S741_S741x1_0 _ (ix2 k (0 : Fin 1)) (ix1 k) (fun a => by
    match a with
    | ⟨0, _⟩ => rfl)

theorem pairIdx_zero (k : Fin 741) :
    Term.pairIdx (F := Ideal) (ix2 k (0 : Fin 2)) = BitVec.ofNat 32 (Cert.Spec.pairFin k).1.val := by
  unfold Term.pairIdx
  refine (concatenate_pair_apply_left 1 _ _ concatenates_S741x1_S741x1_S741x2_d1 (ix2 k (0 : Fin 2)) rfl (ix2 k (0 : Fin 1))
    (fun b => by
      match b with
      | ⟨0, _⟩ => rfl
      | ⟨1, _⟩ => rfl)).trans ?_
  refine (fieldCol_apply _ k).trans ?_
  exact wrapFields_keep _ k _ (pairCol0_apply k)

theorem pairIdx_one (k : Fin 741) :
    Term.pairIdx (F := Ideal) (ix2 k (1 : Fin 2)) = BitVec.ofNat 32 (Cert.Spec.pairFin k).2.val := by
  unfold Term.pairIdx
  refine (concatenate_pair_apply_right 1 _ _ concatenates_S741x1_S741x1_S741x2_d1 (ix2 k (1 : Fin 2)) rfl rfl (ix2 k (0 : Fin 1))
    (fun b hb => by
      match b with
      | ⟨0, _⟩ => rfl
      | ⟨1, _⟩ => exact absurd rfl hb) rfl).trans ?_
  refine (fieldCol_apply _ k).trans ?_
  exact wrapFields_keep _ k _ (pairCol1_apply k)

/-- Update `k` lands on the slot of the `k`-th pair. -/
theorem landing (k : Fin 741) :
    scatter_S39x39_S741x2_S741_n_01_01_1.resultIdx? (ix1 k) (Term.pairIdx (F := Ideal))
      = some (ix2 (Cert.Spec.pairFin k).1 (Cert.Spec.pairFin k).2) :=
  resultIdx_eq _ k _ _ (by rw [pairIdx_zero]; exact (word _).2) (by rw [pairIdx_one]; exact (word _).2)

end Index

/-! ## The matrix at a slot -/

/-- The operand of the scatter is zero everywhere. -/
theorem zeros_apply (i : S39x39.Idx) :
    broadcastInDim S39x39 ![] bcast_S_S39x39 (constant (F := Ideal) S_ .f32 0x00000000#32) i = (0 : EReal) :=
  (broadcastInDim_scalar_apply bcast_S_S39x39 _ i).trans Ideal.ofBits_zero_f32

/-- Two slots that are one slot have the same two field numbers. -/
theorem pair_eq_of_slot {p q p' q' : Fin 39} (e : (ix2 p q : S39x39.Idx) = ix2 p' q') : (p, q) = (p', q') :=
  Prod.ext (Fin.ext (congrArg Fin.val (congrFun e 0))) (Fin.ext (congrArg Fin.val (congrFun e 1)))

/-- THE SLOT OF A LISTED PAIR holds that pair's learned weight. -/
theorem pairWeights_hit (a2 : (⟨S741x1, .f32⟩ : BufTy).Contents (Elt Ideal)) (k : Fin 741) :
    Cert.KernelIdeal.Term.pairWeights (F := Ideal) a2 (ix2 (Cert.Spec.pairFin k).1 (Cert.Spec.pairFin k).2) = a2 (ix2 k (0 : Fin 1)) := by
  unfold Term.pairWeights
  refine (Cert.LibWindowScatter.scatter_set_hit _ _ _ _ _ (ix1 k) (landing k) ?_).trans (shapeCast_col a2 k)
  intro j hj
  obtain ⟨k', rfl⟩ : ∃ k' : Fin 741, j = ix1 k' := ⟨j 0, eq_ix1 j⟩
  rw [landing k'] at hj
  rw [Cert.Spec.pairFin_injective (pair_eq_of_slot (Option.some.inj hj))]

/-- A SLOT NO LISTED PAIR NAMES keeps its zero. -/
theorem pairWeights_miss (a2 : (⟨S741x1, .f32⟩ : BufTy).Contents (Elt Ideal)) (f g : Fin 39) (h : ∀ k, Cert.Spec.pairFin k ≠ (f, g)) :
    Cert.KernelIdeal.Term.pairWeights (F := Ideal) a2 (ix2 f g) = (0 : EReal) := by
  unfold Term.pairWeights
  refine (Cert.LibWindowScatter.scatter_set_miss _ _ _ _ _ ?_).trans (zeros_apply _)
  intro j hj
  obtain ⟨k', rfl⟩ : ∃ k' : Fin 741, j = ix1 k' := ⟨j 0, eq_ix1 j⟩
  rw [landing k'] at hj
  exact h k' (pair_eq_of_slot (Option.some.inj hj))

end Cert.KernelIdeal.Weights

end
-- ==== Proof.KValue.lean ====
/-
  The first program's result as the specification: the blocks hold, row by row, the sum over all ordered pairs of
  fields of the inner products against the weight matrix, plus the first-order term; the weight matrix holds the
  learned weight of each listed pair in that pair's slot and zero elsewhere, and the listed pairs are distinct, so the
  all-pairs sum is the listed-pairs sum; adding the bias spread over the column gives the result.
-/
import proofs.«127290_j47021301957264_2_alg».proof.Proof.KWeights
import proofs.«127290_j47021301957264_2_alg».proof.Proof.KTerm
import proofs.«127290_j47021301957264_2_alg».proof.Proof.Spec
import Idealize.ShloMosaic.Lib.ValueIdx
import Idealize.ShloMosaic.Lib.IdealHost

noncomputable section

namespace Cert.KernelIdeal.Value

open Idealize.ShloMosaic Idealize.ShloMosaic.ValueIdx Idealize.SL.Sem
open Cert.KernelIdeal

/-- The bias column holds the bias in every row. -/
theorem biasCol_apply (a4 : (⟨S_, .f32⟩ : BufTy).Contents (Elt Ideal)) (i : S8192x1.Idx) :
    Cert.KernelIdeal.Term.biasCol (F := Ideal) a4 i = a4 ix0 := by
  unfold Cert.KernelIdeal.Term.biasCol
  exact broadcastInDim_scalar_apply _ a4 i

/-- The blocks plus the bias column are the specification's result. -/
theorem blocks_add_bias (E : (⟨S8192x39x16, .f32⟩ : BufTy).Contents (Elt Ideal)) (FO : (⟨S8192x1, .f32⟩ : BufTy).Contents (Elt Ideal))
    (a2 : (⟨S741x1, .f32⟩ : BufTy).Contents (Elt Ideal)) (a4 : (⟨S_, .f32⟩ : BufTy).Contents (Elt Ideal)) :
    addf (F := Ideal) (φ := .f32) (Cert.Spec.partial39 E FO (Cert.KernelIdeal.Term.pairWeights (F := Ideal) a2)) (Cert.KernelIdeal.Term.biasCol (F := Ideal) a4)
      = Cert.Spec.result E FO a2 a4 := by
  funext i
  refine (addf_apply (s := S8192x1) (φ := .f32) _ _ i).trans ?_
  rw [biasCol_apply a4 i]
  unfold Cert.Spec.partial39 Cert.Spec.result Cert.Spec.row
  rw [Cert.Spec.gramSum_eq_pairSum _ Cert.Spec.pairFin Cert.Spec.pairFin_injective (fun k => a2 (ix2 k (0 : Fin 1))) _
    (fun k => Cert.KernelIdeal.Weights.pairWeights_hit a2 k) (fun f g h => Cert.KernelIdeal.Weights.pairWeights_miss a2 f g h)]

end Cert.KernelIdeal.Value

end
-- ==== Proof.LibBatchDot.lean ====
/-
  Two batched matrix products read at an index.

  Both have one batch axis, the leading one, shared by the two operands and the result.
  The SCORES product takes `[N, H, D]` and `[N, G, D]` to `[N, H, G]`, contracting the last axis of both:
  at `(n, h, g)` it is the sum over `d` of `lhs (n, h, d) * rhs (n, g, d)`, the inner product of row `h` of the
  left operand's `n`-th matrix with row `g` of the right operand's.
  The CONTEXT product takes `[N, H, G]` and `[N, G, D]` to `[N, H, D]`, contracting the left operand's last axis
  with the right operand's middle axis: at `(n, h, d)` it is the sum over `g` of `lhs (n, h, g) * rhs (n, g, d)`,
  the plain product of the two `n`-th matrices.
  The dimension numbers are the records below, whose side condition is a parameter: any record with the same
  lists is one of them by unfolding. The sums are on the extended reals, into a zero accumulator.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibBatchDot

open Idealize.ShloMosaic Idealize.ShloMosaic.ValueIdx

/-! ## The scores product: contract the last axis of both operands -/

/-- The dimension numbers of `[N, H, D] × [N, G, D] → [N, H, G]`, batch axis 0, contracting axis 2 of both. -/
abbrev scoresDot (N H G D : Nat)
    (wf : DotDims.WF ⟨3, ![N, H, D]⟩ ⟨3, ![N, G, D]⟩ ⟨3, ![N, H, G]⟩ [2] [2] [1] [1] [0] [0]) :
    DotDims ⟨3, ![N, H, D]⟩ ⟨3, ![N, G, D]⟩ ⟨3, ![N, H, G]⟩ where
  lhsContracting := [2]
  rhsContracting := [2]
  lhsNonContracting := [1]
  rhsNonContracting := [1]
  lhsBatch := [0]
  rhsBatch := [0]
  wf := wf

section
variable {N H G D : Nat} (wf : DotDims.WF ⟨3, ![N, H, D]⟩ ⟨3, ![N, G, D]⟩ ⟨3, ![N, H, G]⟩ [2] [2] [1] [1] [0] [0])

/-- The left operand's index for output `(n, h, g)` and contraction coordinate `d` is `(n, h, d)`. -/
theorem scoresDot_lhsIdx (n : Fin N) (h : Fin H) (g : Fin G) (d : Fin D) :
    (scoresDot N H G D wf).lhsIdx (ix3 n h g) ((contrEquiv1 (scoresDot N H G D wf) D rfl rfl).symm d) = ix3 n h d := by
  have hd := contrEquiv1_symm_val (scoresDot N H G D wf) D rfl rfl d
  funext a
  refine Fin.ext ?_
  match a with
  | ⟨0, _⟩ =>
    show ((scoresDot N H G D wf).lhsIdx (ix3 n h g) ((contrEquiv1 (scoresDot N H G D wf) D rfl rfl).symm d) 0).val = n.val
    unfold DotDims.lhsIdx
    rw [dif_pos (show (0 : Fin 3) ∈ (scoresDot N H G D wf).lhsBatch from List.mem_singleton.mpr rfl)]
    rfl
  | ⟨1, _⟩ =>
    show ((scoresDot N H G D wf).lhsIdx (ix3 n h g) ((contrEquiv1 (scoresDot N H G D wf) D rfl rfl).symm d) 1).val = h.val
    unfold DotDims.lhsIdx
    rw [dif_neg (show ¬(1 : Fin 3) ∈ (scoresDot N H G D wf).lhsBatch from fun hm => absurd (List.mem_singleton.mp hm) (show ¬((1 : Fin 3) = 0) by decide)),
      dif_pos (show (1 : Fin 3) ∈ (scoresDot N H G D wf).lhsNonContracting from List.mem_singleton.mpr rfl)]
    rfl
  | ⟨2, _⟩ =>
    exact ((scoresDot N H G D wf).lhsIdx_val_of_single (cl := (2 : Fin 3)) rfl (ix3 n h g) _).trans hd

/-- The right operand's index for output `(n, h, g)` and contraction coordinate `d` is `(n, g, d)`. -/
theorem scoresDot_rhsIdx (n : Fin N) (h : Fin H) (g : Fin G) (d : Fin D) :
    (scoresDot N H G D wf).rhsIdx (ix3 n h g) ((contrEquiv1 (scoresDot N H G D wf) D rfl rfl).symm d) = ix3 n g d := by
  have hd := contrEquiv1_symm_val (scoresDot N H G D wf) D rfl rfl d
  funext a
  refine Fin.ext ?_
  match a with
  | ⟨0, _⟩ =>
    show ((scoresDot N H G D wf).rhsIdx (ix3 n h g) ((contrEquiv1 (scoresDot N H G D wf) D rfl rfl).symm d) 0).val = n.val
    unfold DotDims.rhsIdx
    rw [dif_pos (show (0 : Fin 3) ∈ (scoresDot N H G D wf).rhsBatch from List.mem_singleton.mpr rfl)]
    rfl
  | ⟨1, _⟩ =>
    show ((scoresDot N H G D wf).rhsIdx (ix3 n h g) ((contrEquiv1 (scoresDot N H G D wf) D rfl rfl).symm d) 1).val = g.val
    unfold DotDims.rhsIdx
    rw [dif_neg (show ¬(1 : Fin 3) ∈ (scoresDot N H G D wf).rhsBatch from fun hm => absurd (List.mem_singleton.mp hm) (show ¬((1 : Fin 3) = 0) by decide)),
      dif_pos (show (1 : Fin 3) ∈ (scoresDot N H G D wf).rhsNonContracting from List.mem_singleton.mpr rfl)]
    rfl
  | ⟨2, _⟩ =>
    exact ((scoresDot N H G D wf).rhsIdx_val_of_single (cr := (2 : Fin 3)) rfl (ix3 n h g) _).trans hd

/-- THE SCORES PRODUCT INTO A ZERO ACCUMULATOR AT `(n, h, g)`: the sum over `d` of `lhs (n, h, d) * rhs (n, g, d)`. -/
theorem scores_zero_apply {φ₁ φ₂ : FTy} (prec : Option ContractPrecision)
    (lhs : FVec Ideal ⟨3, ![N, H, D]⟩ φ₁) (rhs : FVec Ideal ⟨3, ![N, G, D]⟩ φ₂) (n : Fin N) (h : Fin H) (g : Fin G) :
    FloatOps.matmul (scoresDot N H G D wf) prec lhs rhs (constant ⟨3, ![N, H, G]⟩ .f32 0x00000000#32) (ix3 n h g)
      = ∑ d : Fin D, lhs (ix3 n h d) * rhs (ix3 n g d) := by
  rw [Ideal.matmul_constant_zero_apply, ← Equiv.sum_comp (contrEquiv1 (scoresDot N H G D wf) D rfl rfl).symm]
  refine Finset.sum_congr rfl fun d _ => ?_
  rw [scoresDot_lhsIdx wf n h g d, scoresDot_rhsIdx wf n h g d]

end

/-! ## The context product: the left operand's last axis against the right operand's middle axis -/

/-- The dimension numbers of `[N, H, G] × [N, G, D] → [N, H, D]`, batch axis 0, contracting axis 2 with axis 1. -/
abbrev contextDot (N H G D : Nat)
    (wf : DotDims.WF ⟨3, ![N, H, G]⟩ ⟨3, ![N, G, D]⟩ ⟨3, ![N, H, D]⟩ [2] [1] [1] [2] [0] [0]) :
    DotDims ⟨3, ![N, H, G]⟩ ⟨3, ![N, G, D]⟩ ⟨3, ![N, H, D]⟩ where
  lhsContracting := [2]
  rhsContracting := [1]
  lhsNonContracting := [1]
  rhsNonContracting := [2]
  lhsBatch := [0]
  rhsBatch := [0]
  wf := wf

section
variable {N H G D : Nat} (wf : DotDims.WF ⟨3, ![N, H, G]⟩ ⟨3, ![N, G, D]⟩ ⟨3, ![N, H, D]⟩ [2] [1] [1] [2] [0] [0])

/-- The left operand's index for output `(n, h, d)` and contraction coordinate `g` is `(n, h, g)`. -/
theorem contextDot_lhsIdx (n : Fin N) (h : Fin H) (d : Fin D) (g : Fin G) :
    (contextDot N H G D wf).lhsIdx (ix3 n h d) ((contrEquiv1 (contextDot N H G D wf) G rfl rfl).symm g) = ix3 n h g := by
  have hg := contrEquiv1_symm_val (contextDot N H G D wf) G rfl rfl g
  funext a
  refine Fin.ext ?_
  match a with
  | ⟨0, _⟩ =>
    show ((contextDot N H G D wf).lhsIdx (ix3 n h d) ((contrEquiv1 (contextDot N H G D wf) G rfl rfl).symm g) 0).val = n.val
    unfold DotDims.lhsIdx
    rw [dif_pos (show (0 : Fin 3) ∈ (contextDot N H G D wf).lhsBatch from List.mem_singleton.mpr rfl)]
    rfl
  | ⟨1, _⟩ =>
    show ((contextDot N H G D wf).lhsIdx (ix3 n h d) ((contrEquiv1 (contextDot N H G D wf) G rfl rfl).symm g) 1).val = h.val
    unfold DotDims.lhsIdx
    rw [dif_neg (show ¬(1 : Fin 3) ∈ (contextDot N H G D wf).lhsBatch from fun hm => absurd (List.mem_singleton.mp hm) (show ¬((1 : Fin 3) = 0) by decide)),
      dif_pos (show (1 : Fin 3) ∈ (contextDot N H G D wf).lhsNonContracting from List.mem_singleton.mpr rfl)]
    rfl
  | ⟨2, _⟩ =>
    exact ((contextDot N H G D wf).lhsIdx_val_of_single (cl := (2 : Fin 3)) rfl (ix3 n h d) _).trans hg

/-- The right operand's index for output `(n, h, d)` and contraction coordinate `g` is `(n, g, d)`. -/
theorem contextDot_rhsIdx (n : Fin N) (h : Fin H) (d : Fin D) (g : Fin G) :
    (contextDot N H G D wf).rhsIdx (ix3 n h d) ((contrEquiv1 (contextDot N H G D wf) G rfl rfl).symm g) = ix3 n g d := by
  have hg := contrEquiv1_symm_val (contextDot N H G D wf) G rfl rfl g
  funext a
  refine Fin.ext ?_
  match a with
  | ⟨0, _⟩ =>
    show ((contextDot N H G D wf).rhsIdx (ix3 n h d) ((contrEquiv1 (contextDot N H G D wf) G rfl rfl).symm g) 0).val = n.val
    unfold DotDims.rhsIdx
    rw [dif_pos (show (0 : Fin 3) ∈ (contextDot N H G D wf).rhsBatch from List.mem_singleton.mpr rfl)]
    rfl
  | ⟨1, _⟩ =>
    exact ((contextDot N H G D wf).rhsIdx_val_of_single (cr := (1 : Fin 3)) rfl (ix3 n h d) _).trans hg
  | ⟨2, _⟩ =>
    show ((contextDot N H G D wf).rhsIdx (ix3 n h d) ((contrEquiv1 (contextDot N H G D wf) G rfl rfl).symm g) 2).val = d.val
    unfold DotDims.rhsIdx
    rw [dif_neg (show ¬(2 : Fin 3) ∈ (contextDot N H G D wf).rhsBatch from fun hm => absurd (List.mem_singleton.mp hm) (show ¬((2 : Fin 3) = 0) by decide)),
      dif_pos (show (2 : Fin 3) ∈ (contextDot N H G D wf).rhsNonContracting from List.mem_singleton.mpr rfl)]
    rfl

/-- THE CONTEXT PRODUCT INTO A ZERO ACCUMULATOR AT `(n, h, d)`: the sum over `g` of `lhs (n, h, g) * rhs (n, g, d)`. -/
theorem context_zero_apply {φ₁ φ₂ : FTy} (prec : Option ContractPrecision)
    (lhs : FVec Ideal ⟨3, ![N, H, G]⟩ φ₁) (rhs : FVec Ideal ⟨3, ![N, G, D]⟩ φ₂) (n : Fin N) (h : Fin H) (d : Fin D) :
    FloatOps.matmul (contextDot N H G D wf) prec lhs rhs (constant ⟨3, ![N, H, D]⟩ .f32 0x00000000#32) (ix3 n h d)
      = ∑ g : Fin G, lhs (ix3 n h g) * rhs (ix3 n g d) := by
  rw [Ideal.matmul_constant_zero_apply, ← Equiv.sum_comp (contrEquiv1 (contextDot N H G D wf) G rfl rfl).symm]
  refine Finset.sum_congr rfl fun g _ => ?_
  rw [contextDot_lhsIdx wf n h d g, contextDot_rhsIdx wf n h d g]

end

end Cert.LibBatchDot

end
-- ==== Proof.KPayload.lean ====
/-
  The stored value of the kernel body read at a batch row.

  The body takes a block of 256 batch rows, each with 39 field vectors of 16 coordinates, the 39 x 39 weight matrix and
  the block's first-order column. It forms, for every row, the 39 x 39 matrix of inner products of the row's field vectors
  (a batched product of the block with itself into a zero accumulator; the change of format before it is the identity on
  the extended reals), multiplies it entrywise by the weight matrix repeated over the rows, sums over the second field
  axis, then over the first, and adds the first-order term. At row `r` that is the all-pairs sum
  `sum_f sum_g <e f, e g> * W f g` plus the row's first-order term.
-/
import proofs.«127290_j47021301957264_2_alg».proof.Proof.Gen.KernelIdeal.Skeleton
import proofs.«127290_j47021301957264_2_alg».proof.Proof.Spec
import proofs.«127290_j47021301957264_2_alg».proof.Proof.LibBatchDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Idealize.SL.Sem Cert.KernelIdeal

/-! ## The two sums over one axis -/

/-- The sum of a `[256, 39, 39]` array over its last axis, into a zero accumulator, at `(r, f)`. -/
theorem sum_last (src : FVec Ideal S256x39x39 .f32) (h : S256x39x39.Reduces [2] S256x39) (hφ : FKind.Formats .f32)
    (hacc : (0x00000000#32 : BitVec 32) = 0x00000000#32) (r : Fin 256) (f : Fin 39) :
    multiReduction (F := Ideal) .add [2] S256x39 src 0x00000000#32 h hφ hacc (ix2 r f) = ∑ g : Fin 39, src (ix3 r f g) := by
  refine (Ideal.multiReduction_add_single src 0x00000000#32 h hφ hacc (ix2 r f)).trans ?_
  refine Finset.sum_congr rfl fun g _ => congrArg src ?_
  funext a
  match a with
  | ⟨0, _⟩ => rfl
  | ⟨1, _⟩ => rfl
  | ⟨2, _⟩ => rfl

/-- The sum of a `[256, 39]` array over its last axis, into a zero accumulator, at `r`. -/
theorem sum_mid (src : FVec Ideal S256x39 .f32) (h : S256x39.Reduces [1] S256) (hφ : FKind.Formats .f32)
    (hacc : (0x00000000#32 : BitVec 32) = 0x00000000#32) (r : Fin 256) :
    multiReduction (F := Ideal) .add [1] S256 src 0x00000000#32 h hφ hacc (ix1 r) = ∑ f : Fin 39, src (ix2 r f) := by
  refine (Ideal.multiReduction_add_single src 0x00000000#32 h hφ hacc (ix1 r)).trans ?_
  refine Finset.sum_congr rfl fun f _ => congrArg src ?_
  funext a
  match a with
  | ⟨0, _⟩ => rfl
  | ⟨1, _⟩ => rfl

/-! ## The two layout steps -/

/-- A `[256]` array cast to the column `[256, 1]` reads, at `(r, u)`, the operand at `r`. -/
theorem column_apply {α : Type} (v : S256.Idx → α) (h : S256.ShapeCasts S256x1) (r : Fin 256) (u : Fin 1) :
    shapeCast S256x1 v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- The weight matrix given a leading unit axis and repeated over the 256 rows reads, at `(r, f, g)`, the matrix at `(f, g)`. -/
theorem spread_apply {α : Type} (w : S39x39.Idx → α) (h1 : S39x39.ShapeCasts S1x39x39) (h2 : S1x39x39.Broadcasts S256x39x39)
    (r : Fin 256) (f g : Fin 39) :
    broadcastTo S256x39x39 (shapeCast S1x39x39 w h1) h2 (ix3 r f g) = w (ix2 f g) := by
  refine (broadcastTo_apply _ h2 (ix3 r f g) (ix3 (0 : Fin 1) f g) fun ax => ?_).trans (shapeCast_ab_1ab_apply w h1 0 f g)
  match ax with
  | ⟨0, _⟩ => rfl
  | ⟨1, _⟩ => rfl
  | ⟨2, _⟩ => rfl

/-! ## The inner products -/

/-- The batched product of a block with itself into a zero accumulator, at `(r, f, g)`: the inner product of the row's
    field vectors `f` and `g`. -/
theorem gram_apply (e : FVec Ideal S256x39x16 .bf16) (r : Fin 256) (f g : Fin 39) :
    matmul (F := Ideal) dot_S256x39x16_S256x39x16_S256x39x39_2_2_1_1_0_0 none e e (constant (F := Ideal) S256x39x39 .f32 0x00000000#32) (ix3 r f g)
      = ∑ d : Fin 16, e (ix3 r f d) * e (ix3 r g d) :=
  Cert.LibBatchDot.scores_zero_apply (N := 256) (H := 39) (G := 39) (D := 16) Facts₀.dot_S256x39x16_S256x39x16_S256x39x39_2_2_1_1_0_0_wf none e e r f g

/-! ## The stored value at a row -/

/-- THE STORED VALUE AT ROW `r`: the all-pairs sum of the row's inner products against the weights, plus the row's first-order term. -/
theorem pay_apply (x0 : Vec Ideal S256x39x16 .f32) (x2 : Vec Ideal S39x39 .f32) (x1 : Vec Ideal S256x1 .f32) (r : Fin 256) :
    Cert.KernelIdeal.Gen.k0_pay1 (F := Ideal) x0 x2 x1 (ix2 r (0 : Fin 1))
      = Cert.Spec.gramSum (fun (f : Fin 39) (d : Fin 16) => x0 (ix3 r f d)) (fun (f g : Fin 39) => x2 (ix2 f g)) + x1 (ix2 r (0 : Fin 1)) := by
  unfold Cert.KernelIdeal.Gen.k0_pay1
  refine (addf_apply _ _ _).trans ?_
  refine congrArg₂ (· + ·) ?_ (congrFun (shapeCast_self x1 _) _)
  refine (column_apply _ _ r 0).trans ?_
  refine (sum_mid _ _ _ _ r).trans ?_
  unfold Cert.Spec.gramSum
  refine Finset.sum_congr rfl fun f _ => ?_
  refine (sum_last _ _ _ _ r f).trans ?_
  refine Finset.sum_congr rfl fun g _ => ?_
  refine (mulf_apply _ _ _).trans ?_
  refine congrArg₂ (· * ·) ?_ ?_
  · refine (gram_apply _ r f g).trans ?_
    refine Finset.sum_congr rfl fun d _ => ?_
    rw [shapeCast_self]
    rfl
  · refine (spread_apply _ _ _ r f g).trans ?_
    rw [shapeCast_self]

end Cert.KernelIdeal.Payload

end
-- ==== Proof.KBlocks.lean ====
/-
  From the 32 blocks to the whole output array of the region.

  The region's grid has 32 points. Point `t` reads rows `256 t … 256 t + 255` of the gathered field vectors and of the
  first-order column, the whole 39 x 39 weight matrix, and writes rows `256 t … 256 t + 255` of the output column. What it
  writes at row `r` of its block is the all-pairs sum of that row's inner products against the weights plus the row's
  first-order term, a function of batch row `256 t + r` alone. Row `b` of the output lies in the block of point `b / 256`,
  so the 32 blocks cover the column and the array ends holding that function of the row at every row.
-/
import proofs.«127290_j47021301957264_2_alg».proof.Proof.KPayload
import proofs.«127290_j47021301957264_2_alg».proof.Proof.Gen.KernelIdeal.Frame
import proofs.«127290_j47021301957264_2_alg».proof.Proof.Spec
import Idealize.ShloMosaic.Lib.Pipeline.Value

noncomputable section

open scoped BigOperators

namespace Cert.KernelIdeal.Blocks

open Idealize.ShloMosaic Idealize.ShloMosaic.ValueIdx Idealize.ShloMosaic.TcCoe Idealize.SL.Sem
open Idealize.ShloMosaic.Pipeline (Dat)
open Cert.KernelIdeal Cert.KernelIdeal.Gen

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The printed index maps, decided once over the grid: the field vectors', the first-order column's and the output's
    blocks are numbered by the point along the batch axis, and the weight matrix is one block. -/
theorem idx_facts : ∀ t : Fin cfg0.N, win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## One row of one block -/

/-- A point's stored value at row `y` of its block, when that row of each input block is batch row `i` of the input's
    array and the weight block is the weight matrix: the all-pairs sum of batch row `i` plus its first-order term. -/
theorem row_value (E : S8192x39x16.Idx → EReal) (FO : S8192x1.Idx → EReal) (W : S39x39.Idx → EReal)
    (x0 : Vec Ideal S256x39x16 .f32) (x1 : Vec Ideal S256x1 .f32) (x2 : Vec Ideal S39x39 .f32) (y : S256x1.Idx) (i : S8192x1.Idx)
    (h0 : ∀ (f : Fin 39) (d : Fin 16), x0 (ix3 (⟨(y 0).val, idx2_lt0 y⟩ : Fin 256) f d) = E (ix3 (⟨(i 0).val, idx2_lt0 i⟩ : Fin 8192) f d))
    (h1 : x1 (ix2 (⟨(y 0).val, idx2_lt0 y⟩ : Fin 256) (0 : Fin 1)) = FO (ix2 (⟨(i 0).val, idx2_lt0 i⟩ : Fin 8192) (0 : Fin 1)))
    (h2 : ∀ f g : Fin 39, x2 (ix2 f g) = W (ix2 f g)) :
    k0_pay1 (F := Ideal) x0 x2 x1 y = Cert.Spec.partial39 E FO W i := by
  have hy : y = ix2 (⟨(y 0).val, idx2_lt0 y⟩ : Fin 256) (0 : Fin 1) := by
    funext a
    match a with
    | ⟨0, _⟩ => rfl
    | ⟨1, _⟩ => exact Fin.ext (by have h : (y 1).val < 1 := (y 1).isLt; show (y 1).val = 0; omega)
  refine (congrArg (k0_pay1 (F := Ideal) x0 x2 x1) hy).trans ?_
  refine (Cert.KernelIdeal.Payload.pay_apply x0 x2 x1 _).trans ?_
  unfold Cert.Spec.partial39
  refine congrArg₂ (· + ·) ?_ h1
  exact congrArg₂ Cert.Spec.gramSum (funext fun f => funext fun d => h0 f d) (funext fun f => funext fun g => h2 f g)

/-! ## The input blocks as rows of the arrays -/

/-- Row `y` of point `t`'s block of the field vectors is batch row `256 t + y` of the array. -/
theorem block0_apply (c : Dev nD) (t : Fin cfg0.N) (y : Fin 256) (f : Fin 39) (d : Fin 16) (b : Fin 8192) (hb : b.val = t.val * 256 + y.val) :
    (iblk m c 0 t : Vec Ideal S256x39x16 .f32) (ix3 y f d) = (V m c main_v6 : S8192x39x16.Idx → EReal) (ix3 b f d) := by
  obtain ⟨e0, e1, e2, -⟩ := idx_facts t
  unfold iblk
  rw [View.read_apply]
  show (V m c main_v6 : S8192x39x16.Idx → EReal) _ = _
  refine congrArg (V m c main_v6 : S8192x39x16.Idx → EReal) (funext fun a => Fin.ext ?_)
  match a with
  | ⟨0, _⟩ => show win0_0.index t (0 : Fin 3) * 256 + 1 * y.val = b.val; rw [e0, hb]; omega
  | ⟨1, _⟩ => show win0_0.index t (1 : Fin 3) * 39 + 1 * f.val = f.val; rw [e1]; omega
  | ⟨2, _⟩ => show win0_0.index t (2 : Fin 3) * 16 + 1 * d.val = d.val; rw [e2]; omega

/-- Row `y` of point `t`'s block of the first-order column is batch row `256 t + y` of the column. -/
theorem block1_apply (c : Dev nD) (t : Fin cfg0.N) (y : Fin 256) (u : Fin 1) (b : Fin 8192) (hb : b.val = t.val * 256 + y.val) :
    (iblk m c 1 t : Vec Ideal S256x1 .f32) (ix2 y u) = (V m c main_v15 : S8192x1.Idx → EReal) (ix2 b u) := by
  obtain ⟨-, -, -, e0, e1, -⟩ := idx_facts t
  unfold iblk
  rw [View.read_apply]
  show (V m c main_v15 : S8192x1.Idx → EReal) _ = _
  refine congrArg (V m c main_v15 : S8192x1.Idx → EReal) (funext fun a => Fin.ext ?_)
  match a with
  | ⟨0, _⟩ => show win0_1.index t (0 : Fin 2) * 256 + 1 * y.val = b.val; rw [e0, hb]; omega
  | ⟨1, _⟩ => show win0_1.index t (1 : Fin 2) * 1 + 1 * u.val = u.val; rw [e1]; omega

/-- Every point's block of the weight matrix is the whole matrix. -/
theorem block2_apply (c : Dev nD) (t : Fin cfg0.N) (f g : Fin 39) :
    (iblk m c 2 t : Vec Ideal S39x39 .f32) (ix2 f g) = (V m c main_v35 : S39x39.Idx → EReal) (ix2 f g) := by
  obtain ⟨-, -, -, -, -, e0, e1, -⟩ := idx_facts t
  unfold iblk
  rw [View.read_apply]
  show (V m c main_v35 : S39x39.Idx → EReal) _ = _
  refine congrArg (V m c main_v35 : S39x39.Idx → EReal) (funext fun a => Fin.ext ?_)
  match a with
  | ⟨0, _⟩ => show win0_2.index t (0 : Fin 2) * 39 + 1 * f.val = f.val; rw [e0]; omega
  | ⟨1, _⟩ => show win0_2.index t (1 : Fin 2) * 39 + 1 * g.val = g.val; rw [e1]; omega

/-! ## What a point writes back -/

/-- The array the region leaves: at every batch row the all-pairs sum plus the first-order term, of the arrays as the
    region finds them. -/
abbrev whole (c : Dev nD) : S8192x1.Idx → EReal :=
  Cert.Spec.partial39 (V m c main_v6) (V m c main_v15) (V m c main_v35)

/-- WHAT POINT `t` WRITES BACK is block `t` of that array. -/
theorem flushed_eq (c : Dev nD) (t : Fin cfg0.N) :
    (dats m 0 c).flushed 3 t = ((cfg0.win 3).blk t).view.read (Elt Ideal) (whole m c) := by
  show (cfg0.win 3).cut (grid0.coords t) ((dats m 0 c).after 3 t) = _
  rw [after0_3]
  unfold out0_3
  rw [View.canon_unit_zero zero2]
  simp only [View.ld_unit_zero (S := S256x39x16) zero3, View.ld_unit_zero (S := S39x39) zero2, View.ld_unit_zero (S := S256x1) zero2]
  obtain ⟨-, -, -, -, -, -, -, e0, e1⟩ := idx_facts t
  funext j
  have hj : (j 0).val < 256 := (j 0).isLt
  have ht : t.val < 32 := Nat.lt_of_lt_of_eq t.isLt (show cfg0.N = 32 from N_0)
  have hrow : ((((cfg0.win 3).blk t).view.emb j) 0).val = t.val * 256 + (j 0).val := by
    show win0_3.index t (0 : Fin 2) * 256 + 1 * (j 0).val = _
    rw [e0]; omega
  refine row_value (V m c main_v6) (V m c main_v15) (V m c main_v35) (iblk m c 0 t) (iblk m c 1 t) (iblk m c 2 t) j
    (((cfg0.win 3).blk t).view.emb j) (fun f d => ?_) ?_ (fun f g => ?_)
  · exact block0_apply m c t _ f d _ hrow
  · exact block1_apply m c t _ 0 _ hrow
  · exact block2_apply m c t f g

/-! ## The blocks cover the column -/

/-- An index of the column is in point `t`'s block iff each coordinate is in the block's range on its axis. -/
theorem mem_blk (t : Fin cfg0.N) (i : S8192x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v36).slice (win0_3.rect t)).set ↔ _
  rw [View.set_slice_whole, Rect.mem_set_unit]
  exact Iff.rfl

/-- Batch row `b` lies in the block of point `b / 256`. -/
theorem cover (i : S8192x1.Idx) : ∃ t : Fin cfg0.N, (cfg0.win 3).flush t = true ∧ i ∈ ((cfg0.win 3).blk t).view.set := by
  have hN : cfg0.N = 32 := N_0
  have hi0 : (i 0).val < 8192 := (i 0).isLt
  have hi1 : (i 1).val < 1 := (i 1).isLt
  let t : Fin cfg0.N := ⟨(i 0).val / 256, by rw [hN]; omega⟩
  have htv : t.val = (i 0).val / 256 := rfl
  obtain ⟨-, -, -, -, -, -, -, e0, e1⟩ := idx_facts t
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; rw [e0, htv]; omega
  | ⟨1, _⟩ => show win0_3.index t (1 : Fin 2) * 1 ≤ (i 1).val ∧ (i 1).val < win0_3.index t (1 : Fin 2) * 1 + 1; rw [e1]; omega

/-! ## The array after the region -/

/-- THE OUTPUT ARRAY AFTER THE REGION: at every batch row, the all-pairs sum of the row's inner products against the
    weight matrix plus the row's first-order term. -/
theorem final3 (m : (ℓ : Loc nD τ sig) → Buf (Elt Ideal) ℓ) (c : Dev nD) :
    (Cert.KernelIdeal.Gen.dats m 0 c).arrAt 3 cfg0.N
      = Cert.Spec.partial39 (Cert.KernelIdeal.Gen.V m c main_v6) (Cert.KernelIdeal.Gen.V m c main_v15) (Cert.KernelIdeal.Gen.V m c main_v35) :=
  (dats m 0 c).arrAt_eq_of_cover 3 (whole m c) (fun t _ => flushed_eq m c t) cover

end Cert.KernelIdeal.Blocks

end
-- ==== Proof.KRun.lean ====
/-
  The first program's run with its result named: the region leaves in its output array, row by row, the all-pairs
  sum against the weight matrix plus the first-order term; the two host operations after the region add the bias
  spread over the column; the argument arrays are untouched. With the three input arrays of the region read as
  functions of the arguments, the result buffer ends at the specification's result.
-/
import proofs.«127290_j47021301957264_2_alg».proof.Proof.Gen.KernelIdeal.Frame
import proofs.«127290_j47021301957264_2_alg».proof.Proof.KHost
import proofs.«127290_j47021301957264_2_alg».proof.Proof.KValue
import proofs.«127290_j47021301957264_2_alg».proof.Proof.KBlocks
import Idealize.ShloMosaic.Lib.StableHlo.Run
import Idealize.ShloMosaic.PureOps.Ideal

noncomputable section

namespace Cert.KernelIdeal.Run

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- After the two host operations that follow the region, the result buffer holds the region's output array plus the
    bias spread over the column. -/
theorem tail_eq (c : Dev nD) :
    Pipeline.afterTail₀ cfgs (dats m) 0 (V0 m) [hostOps1] c main_v38
      = addf (F := Ideal) (φ := .f32) ((dats m 0 c).arrAt 3 cfg0.N) (Cert.KernelIdeal.Term.biasCol (m ((c.tc : Thread nD τ).loc main_arg4))) := by
  have h36 : Pipeline.withArrays (cfgs 0).spec c (V0 m c) (fun w => (dats m 0 c).arrAt w (cfgs 0).N) (Proc.devRef .tc main_v36)
      = (dats m 0 c).arrAt 3 cfg0.N := Pipeline.withArrays_arr spec0 launch0.win.arr_inj c _ _ 3
  have h4 : Pipeline.withArrays (cfgs 0).spec c (V0 m c) (fun w => (dats m 0 c).arrAt w (cfgs 0).N) (Proc.devRef .tc main_arg4)
      = m ((c.tc : Thread nD τ).loc main_arg4) :=
    (Pipeline.withArrays_of_ne _ c (V0 m c) _ main_arg4 (by exact (by decide : ∀ w, Pipeline.arrRef spec0 w ≠ main_arg4))).trans (V_main_arg4 m c)
  unfold Pipeline.afterTail₀
  show StableHlo.after hostOps1 _ (Proc.devRef .tc main_v38) = _
  after_results
  unfold Cert.KernelIdeal.Term.biasCol
  rw [h36, h4]

/-- The result buffer after the run is the specification's result of the argument arrays. -/
theorem result_eq (c : Dev nD) :
    Pipeline.afterTail₀ cfgs (dats m) 0 (V0 m) [hostOps1] c main_v38
      = Cert.Spec.result (Cert.KernelIdeal.Term.fieldEmb (m ((c.tc : Thread nD τ).loc main_arg1)) (m ((c.tc : Thread nD τ).loc main_arg0)))
          (Cert.KernelIdeal.Term.firstOrder (m ((c.tc : Thread nD τ).loc main_arg3)) (m ((c.tc : Thread nD τ).loc main_arg0)))
          (m ((c.tc : Thread nD τ).loc main_arg2)) (m ((c.tc : Thread nD τ).loc main_arg4)) := by
  rw [tail_eq m c, Cert.KernelIdeal.Blocks.final3 m c, Cert.KernelIdeal.HostValue.V_fieldEmb m c,
    Cert.KernelIdeal.HostValue.V_firstOrder m c, Cert.KernelIdeal.HostValue.V_pairWeights m c]
  exact Cert.KernelIdeal.Value.blocks_add_bias _ _ _ _

/-- Every weakly fair execution of the first program terminates, faultless, with the result buffer at the
    specification's result of the argument arrays and the argument arrays unchanged. -/
theorem run : θ_run defs (onTc (τ := τ) (main (F := Ideal))) ⟨m, fun _ => 0, ρ⟩ (fun r => ∀ c : Dev nD,
      r.2.mem ((c.tc : Thread nD τ).loc main_v38)
        = Cert.Spec.result (Cert.KernelIdeal.Term.fieldEmb (m ((c.tc : Thread nD τ).loc main_arg1)) (m ((c.tc : Thread nD τ).loc main_arg0)))
            (Cert.KernelIdeal.Term.firstOrder (m ((c.tc : Thread nD τ).loc main_arg3)) (m ((c.tc : Thread nD τ).loc main_arg0)))
            (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v38 (Pipeline.mem_restRefs_of main_v38 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.Run

end
-- ==== Proof.RTerm.lean ====
/-
  The second program's host operations as named stages, each a pure function of the argument arrays: the gathered field
  vectors, the first-order column, the table of pairs and its two columns, the field vectors of each pair's first and
  second field, the pair sum against the learned weights, the bias column, and the result.
-/
import proofs.«127290_j47021301957264_2_alg».proof.Proof.Gen.ReferenceIdeal

noncomputable section

namespace Cert.ReferenceIdeal.Term

open Idealize.ShloMosaic Idealize.ShloMosaic.TcCoe Idealize.SL.Sem
open Cert.ReferenceIdeal Cert.ReferenceIdeal.Facts₀

variable {F : FTy → Type} [FloatOps F]

/-- A negative row number counts from the end of the table: where the number is negative, the table's length is added. -/
def wrapRows (a0 : (⟨S8192x39, .i32⟩ : BufTy).Contents (Elt F)) : (⟨S8192x39, .i32⟩ : BufTy).Contents (Elt F) :=
  select (cmpi .slt a0 (broadcastInDim S8192x39 ![] bcast_S_S8192x39 (constantI S_ 32 0#32)))
    (addi a0 (broadcastInDim S8192x39 ![] bcast_S_S8192x39 (constantI S_ 32 1000000#32))) a0

/-- The start indices of the two row gathers: the wrapped row numbers with a trailing unit axis. -/
def startRows (a0 : (⟨S8192x39, .i32⟩ : BufTy).Contents (Elt F)) : (⟨S8192x39x1, .i32⟩ : BufTy).Contents (Elt F) :=
  broadcastInDim S8192x39x1 ![0, 1] bcast_S8192x39_S8192x39x1_0_1 (wrapRows a0)

/-- The gathered field vectors: for batch row `b` and field `f`, the embedding table's row named by `a0 (b, f)`. -/
def fieldEmb (a1 : (⟨S1000000x16, .f32⟩ : BufTy).Contents (Elt F)) (a0 : (⟨S8192x39, .i32⟩ : BufTy).Contents (Elt F)) :
    (⟨S8192x39x16, .f32⟩ : BufTy).Contents (Elt F) :=
  Host.gather gather_S1000000x16_S8192x39x1_S8192x39x16_2_0_n_n_0_2_116 a1 (startRows a0)

/-- The first-order column: for batch row `b`, the sum over the fields of the linear weight named by `a0 (b, f)`. -/
def firstOrder (a3 : (⟨S1000000, .f32⟩ : BufTy).Contents (Elt F)) (a0 : (⟨S8192x39, .i32⟩ : BufTy).Contents (Elt F)) :
    (⟨S8192x1, .f32⟩ : BufTy).Contents (Elt F) :=
  broadcastInDim S8192x1 ![0] bcast_S8192_S8192x1_0
    (Host.reduceAdd (Host.gather gather_S1000000_S8192x39x1_S8192x39_n_0_n_n_0_2_1 a3 (startRows a0)) (constant S_ .f32 0x00000000#32)
      reducesTo_S8192x39_S8192_d1 h_S_)

/-- The literal table of the 741 pairs, one pair per row. -/
def pairTable : (⟨S741x2, .i32⟩ : BufTy).Contents (Elt F) := fun i => lit0 (S741x2.rowMajor i)

/-- Column 0 of the table: the first field of each pair. -/
def pairCol0 : (⟨S741, .i32⟩ : BufTy).Contents (Elt F) :=
  shapeCast S741 (extractStridedSlice S741x1 ![0, 0] (pairTable (F := F)) slices_S741x2_S741x1_0_0) shapeCasts_S741x1_S741

/-- Column 1 of the table: the second field of each pair. -/
def pairCol1 : (⟨S741, .i32⟩ : BufTy).Contents (Elt F) :=
  shapeCast S741 (extractStridedSlice S741x1 ![0, 1] (pairTable (F := F)) slices_S741x2_S741x1_0_1) shapeCasts_S741x1_S741

/-- A negative field number counts from the end: where it is negative, 39 is added. -/
def wrapFields (t : (⟨S741, .i32⟩ : BufTy).Contents (Elt F)) : (⟨S741, .i32⟩ : BufTy).Contents (Elt F) :=
  select (cmpi .slt t (broadcastInDim S741 ![] bcast_S_S741 (constantI S_ 32 0#32)))
    (addi t (broadcastInDim S741 ![] bcast_S_S741 (constantI S_ 32 39#32))) t

/-- A wrapped column of field numbers as a 741 x 1 array. -/
def fieldCol (t : (⟨S741, .i32⟩ : BufTy).Contents (Elt F)) : (⟨S741x1, .i32⟩ : BufTy).Contents (Elt F) :=
  broadcastInDim S741x1 ![0] bcast_S741_S741x1_0 (wrapFields t)

/-- The field vectors of one member of each pair: for batch row `b`, pair `k` and coordinate `d`, the gathered vector of
    the field the column names at `k`. -/
def pick (E : (⟨S8192x39x16, .f32⟩ : BufTy).Contents (Elt F)) (t : (⟨S741, .i32⟩ : BufTy).Contents (Elt F)) :
    (⟨S8192x741x16, .f32⟩ : BufTy).Contents (Elt F) :=
  Host.gather gather_S8192x39x16_S741x1_S8192x741x16_02_1_n_n_1_1_8192116 E (fieldCol t)

/-- The inner product of each pair's two field vectors. -/
def pairDots (E : (⟨S8192x39x16, .f32⟩ : BufTy).Contents (Elt F)) : (⟨S8192x741, .f32⟩ : BufTy).Contents (Elt F) :=
  Host.reduceAdd (mulf (pick E (pairCol0 (F := F))) (pick E (pairCol1 (F := F)))) (constant S_ .f32 0x00000000#32)
    reducesTo_S8192x741x16_S8192x741_d2 h_S_

/-- The second-order column: the pairs' inner products against the learned weights. -/
def secondOrder (E : (⟨S8192x39x16, .f32⟩ : BufTy).Contents (Elt F)) (a2 : (⟨S741x1, .f32⟩ : BufTy).Contents (Elt F)) :
    (⟨S8192x1, .f32⟩ : BufTy).Contents (Elt F) :=
  Host.dotGeneral dot_S8192x741_S741x1_S8192x1_1_0_0_1_n_n none (pairDots E) a2

/-- The bias column: a column of ones times the bias spread over the column. -/
def biasCol (a4 : (⟨S_, .f32⟩ : BufTy).Contents (Elt F)) : (⟨S8192x1, .f32⟩ : BufTy).Contents (Elt F) :=
  mulf (broadcastInDim S8192x1 ![] bcast_S_S8192x1 (constant S_ .f32 0x3F800000#32)) (broadcastInDim S8192x1 ![] bcast_S_S8192x1 a4)

/-- The program's result: bias column plus first-order column, plus second-order column. -/
def resultTerm (a0 : (⟨S8192x39, .i32⟩ : BufTy).Contents (Elt F)) (a1 : (⟨S1000000x16, .f32⟩ : BufTy).Contents (Elt F))
    (a2 : (⟨S741x1, .f32⟩ : BufTy).Contents (Elt F)) (a3 : (⟨S1000000, .f32⟩ : BufTy).Contents (Elt F))
    (a4 : (⟨S_, .f32⟩ : BufTy).Contents (Elt F)) : (⟨S8192x1, .f32⟩ : BufTy).Contents (Elt F) :=
  addf (addf (biasCol a4) (firstOrder a3 a0)) (secondOrder (fieldEmb a1 a0) a2)

end Cert.ReferenceIdeal.Term

end
-- ==== Proof.RRun.lean ====
/-
  The second program's @main as the list of its 54 host operations, and its run: every weakly fair execution
  terminates with the result buffer at the operations' composed pure term of the arguments' launch contents
  (the named stages' `resultTerm`), the five arguments unchanged.
-/
import proofs.«127290_j47021301957264_2_alg».proof.Proof.Gen.ReferenceIdeal
import proofs.«127290_j47021301957264_2_alg».proof.Proof.RTerm
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- @main's 54 operations, in order. -/
abbrev ops : List (HloOp τ sig (Elt F)) :=
  [ StableHlo.nullary main_c (fun i => lit0 (S741x2.rowMajor i)),
    StableHlo.nullary main_c_0 (constantI S_ 32 0#32),
    StableHlo.unary main_c_0 main_v0 (broadcastInDim S8192x39 ![] bcast_S_S8192x39 : (⟨S_, .i32⟩ : BufTy).Contents (Elt F) → (⟨S8192x39, .i32⟩ : BufTy).Contents (Elt F)),
    StableHlo.binary main_arg0 main_v0 main_v1 (cmpi .slt : (⟨S8192x39, .i32⟩ : BufTy).Contents (Elt F) → (⟨S8192x39, .i32⟩ : BufTy).Contents (Elt F) → (⟨S8192x39, .i1⟩ : BufTy).Contents (Elt F)),
    StableHlo.nullary main_c_1 (constantI S_ 32 1000000#32),
    StableHlo.unary main_c_1 main_v2 (broadcastInDim S8192x39 ![] bcast_S_S8192x39 : (⟨S_, .i32⟩ : BufTy).Contents (Elt F) → (⟨S8192x39, .i32⟩ : BufTy).Contents (Elt F)),
    StableHlo.binary main_arg0 main_v2 main_v3 (addi : (⟨S8192x39, .i32⟩ : BufTy).Contents (Elt F) → (⟨S8192x39, .i32⟩ : BufTy).Contents (Elt F) → (⟨S8192x39, .i32⟩ : BufTy).Contents (Elt F)),
    StableHlo.ternary main_v1 main_v3 main_arg0 main_v4 (select : (⟨S8192x39, .i1⟩ : BufTy).Contents (Elt F) → (⟨S8192x39, .i32⟩ : BufTy).Contents (Elt F) → (⟨S8192x39, .i32⟩ : BufTy).Contents (Elt F) → (⟨S8192x39, .i32⟩ : BufTy).Contents (Elt F)),
    StableHlo.unary main_v4 main_v5 (broadcastInDim S8192x39x1 ![0, 1] bcast_S8192x39_S8192x39x1_0_1 : (⟨S8192x39, .i32⟩ : BufTy).Contents (Elt F) → (⟨S8192x39x1, .i32⟩ : BufTy).Contents (Elt F)),
    StableHlo.binary main_arg3 main_v5 main_v6 ((fun x i => Host.gather gather_S1000000_S8192x39x1_S8192x39_n_0_n_n_0_2_1 x i) : (⟨S1000000, .f32⟩ : BufTy).Contents (Elt F) → (⟨S8192x39x1, .i32⟩ : BufTy).Contents (Elt F) → (⟨S8192x39, .f32⟩ : BufTy).Contents (Elt F)),
    StableHlo.nullary main_cst (constant S_ .f32 0x00000000#32),
    StableHlo.binary main_v6 main_cst main_v7 ((fun x v => Host.reduceAdd x v reducesTo_S8192x39_S8192_d1 h_S_) : (⟨S8192x39, .f32⟩ : BufTy).Contents (Elt F) → (⟨S_, .f32⟩ : BufTy).Contents (Elt F) → (⟨S8192, .f32⟩ : BufTy).Contents (Elt F)),
    StableHlo.unary main_v7 main_v8 (broadcastInDim S8192x1 ![0] bcast_S8192_S8192x1_0 : (⟨S8192, .f32⟩ : BufTy).Contents (Elt F) → (⟨S8192x1, .f32⟩ : BufTy).Contents (Elt F)),
    StableHlo.nullary main_cst_2 (constant S_ .f32 0x3F800000#32),
    StableHlo.unary main_cst_2 main_v9 (broadcastInDim S8192x1 ![] bcast_S_S8192x1 : (⟨S_, .f32⟩ : BufTy).Contents (Elt F) → (⟨S8192x1, .f32⟩ : BufTy).Contents (Elt F)),
    StableHlo.unary main_arg4 main_v10 (broadcastInDim S8192x1 ![] bcast_S_S8192x1 : (⟨S_, .f32⟩ : BufTy).Contents (Elt F) → (⟨S8192x1, .f32⟩ : BufTy).Contents (Elt F)),
    StableHlo.binary main_v9 main_v10 main_v11 (mulf : (⟨S8192x1, .f32⟩ : BufTy).Contents (Elt F) → (⟨S8192x1, .f32⟩ : BufTy).Contents (Elt F) → (⟨S8192x1, .f32⟩ : BufTy).Contents (Elt F)),
    StableHlo.nullary main_c_3 (constantI S_ 32 0#32),
    StableHlo.unary main_c_3 main_v12 (broadcastInDim S8192x39 ![] bcast_S_S8192x39 : (⟨S_, .i32⟩ : BufTy).Contents (Elt F) → (⟨S8192x39, .i32⟩ : BufTy).Contents (Elt F)),
    StableHlo.binary main_arg0 main_v12 main_v13 (cmpi .slt : (⟨S8192x39, .i32⟩ : BufTy).Contents (Elt F) → (⟨S8192x39, .i32⟩ : BufTy).Contents (Elt F) → (⟨S8192x39, .i1⟩ : BufTy).Contents (Elt F)),
    StableHlo.nullary main_c_4 (constantI S_ 32 1000000#32),
    StableHlo.unary main_c_4 main_v14 (broadcastInDim S8192x39 ![] bcast_S_S8192x39 : (⟨S_, .i32⟩ : BufTy).Contents (Elt F) → (⟨S8192x39, .i32⟩ : BufTy).Contents (Elt F)),
    StableHlo.binary main_arg0 main_v14 main_v15 (addi : (⟨S8192x39, .i32⟩ : BufTy).Contents (Elt F) → (⟨S8192x39, .i32⟩ : BufTy).Contents (Elt F) → (⟨S8192x39, .i32⟩ : BufTy).Contents (Elt F)),
    StableHlo.ternary main_v13 main_v15 main_arg0 main_v16 (select : (⟨S8192x39, .i1⟩ : BufTy).Contents (Elt F) → (⟨S8192x39, .i32⟩ : BufTy).Contents (Elt F) → (⟨S8192x39, .i32⟩ : BufTy).Contents (Elt F) → (⟨S8192x39, .i32⟩ : BufTy).Contents (Elt F)),
    StableHlo.unary main_v16 main_v17 (broadcastInDim S8192x39x1 ![0, 1] bcast_S8192x39_S8192x39x1_0_1 : (⟨S8192x39, .i32⟩ : BufTy).Contents (Elt F) → (⟨S8192x39x1, .i32⟩ : BufTy).Contents (Elt F)),
    StableHlo.binary main_arg1 main_v17 main_v18 ((fun x i => Host.gather gather_S1000000x16_S8192x39x1_S8192x39x16_2_0_n_n_0_2_116 x i) : (⟨S1000000x16, .f32⟩ : BufTy).Contents (Elt F) → (⟨S8192x39x1, .i32⟩ : BufTy).Contents (Elt F) → (⟨S8192x39x16, .f32⟩ : BufTy).Contents (Elt F)),
    StableHlo.unary main_c main_v19 ((extractStridedSlice S741x1 ![0, 0] · slices_S741x2_S741x1_0_0) : (⟨S741x2, .i32⟩ : BufTy).Contents (Elt F) → (⟨S741x1, .i32⟩ : BufTy).Contents (Elt F)),
    StableHlo.reshape main_v19 main_v20 rfl shapeCasts_S741x1_S741,
    StableHlo.nullary main_c_5 (constantI S_ 32 0#32),
    StableHlo.unary main_c_5 main_v21 (broadcastInDim S741 ![] bcast_S_S741 : (⟨S_, .i32⟩ : BufTy).Contents (Elt F) → (⟨S741, .i32⟩ : BufTy).Contents (Elt F)),
    StableHlo.binary main_v20 main_v21 main_v22 (cmpi .slt : (⟨S741, .i32⟩ : BufTy).Contents (Elt F) → (⟨S741, .i32⟩ : BufTy).Contents (Elt F) → (⟨S741, .i1⟩ : BufTy).Contents (Elt F)),
    StableHlo.nullary main_c_6 (constantI S_ 32 39#32),
    StableHlo.unary main_c_6 main_v23 (broadcastInDim S741 ![] bcast_S_S741 : (⟨S_, .i32⟩ : BufTy).Contents (Elt F) → (⟨S741, .i32⟩ : BufTy).Contents (Elt F)),
    StableHlo.binary main_v20 main_v23 main_v24 (addi : (⟨S741, .i32⟩ : BufTy).Contents (Elt F) → (⟨S741, .i32⟩ : BufTy).Contents (Elt F) → (⟨S741, .i32⟩ : BufTy).Contents (Elt F)),
    StableHlo.ternary main_v22 main_v24 main_v20 main_v25 (select : (⟨S741, .i1⟩ : BufTy).Contents (Elt F) → (⟨S741, .i32⟩ : BufTy).Contents (Elt F) → (⟨S741, .i32⟩ : BufTy).Contents (Elt F) → (⟨S741, .i32⟩ : BufTy).Contents (Elt F)),
    StableHlo.unary main_v25 main_v26 (broadcastInDim S741x1 ![0] bcast_S741_S741x1_0 : (⟨S741, .i32⟩ : BufTy).Contents (Elt F) → (⟨S741x1, .i32⟩ : BufTy).Contents (Elt F)),
    StableHlo.binary main_v18 main_v26 main_v27 ((fun x i => Host.gather gather_S8192x39x16_S741x1_S8192x741x16_02_1_n_n_1_1_8192116 x i) : (⟨S8192x39x16, .f32⟩ : BufTy).Contents (Elt F) → (⟨S741x1, .i32⟩ : BufTy).Contents (Elt F) → (⟨S8192x741x16, .f32⟩ : BufTy).Contents (Elt F)),
    StableHlo.unary main_c main_v28 ((extractStridedSlice S741x1 ![0, 1] · slices_S741x2_S741x1_0_1) : (⟨S741x2, .i32⟩ : BufTy).Contents (Elt F) → (⟨S741x1, .i32⟩ : BufTy).Contents (Elt F)),
    StableHlo.reshape main_v28 main_v29 rfl shapeCasts_S741x1_S741,
    StableHlo.nullary main_c_7 (constantI S_ 32 0#32),
    StableHlo.unary main_c_7 main_v30 (broadcastInDim S741 ![] bcast_S_S741 : (⟨S_, .i32⟩ : BufTy).Contents (Elt F) → (⟨S741, .i32⟩ : BufTy).Contents (Elt F)),
    StableHlo.binary main_v29 main_v30 main_v31 (cmpi .slt : (⟨S741, .i32⟩ : BufTy).Contents (Elt F) → (⟨S741, .i32⟩ : BufTy).Contents (Elt F) → (⟨S741, .i1⟩ : BufTy).Contents (Elt F)),
    StableHlo.nullary main_c_8 (constantI S_ 32 39#32),
    StableHlo.unary main_c_8 main_v32 (broadcastInDim S741 ![] bcast_S_S741 : (⟨S_, .i32⟩ : BufTy).Contents (Elt F) → (⟨S741, .i32⟩ : BufTy).Contents (Elt F)),
    StableHlo.binary main_v29 main_v32 main_v33 (addi : (⟨S741, .i32⟩ : BufTy).Contents (Elt F) → (⟨S741, .i32⟩ : BufTy).Contents (Elt F) → (⟨S741, .i32⟩ : BufTy).Contents (Elt F)),
    StableHlo.ternary main_v31 main_v33 main_v29 main_v34 (select : (⟨S741, .i1⟩ : BufTy).Contents (Elt F) → (⟨S741, .i32⟩ : BufTy).Contents (Elt F) → (⟨S741, .i32⟩ : BufTy).Contents (Elt F) → (⟨S741, .i32⟩ : BufTy).Contents (Elt F)),
    StableHlo.unary main_v34 main_v35 (broadcastInDim S741x1 ![0] bcast_S741_S741x1_0 : (⟨S741, .i32⟩ : BufTy).Contents (Elt F) → (⟨S741x1, .i32⟩ : BufTy).Contents (Elt F)),
    StableHlo.binary main_v18 main_v35 main_v36 ((fun x i => Host.gather gather_S8192x39x16_S741x1_S8192x741x16_02_1_n_n_1_1_8192116 x i) : (⟨S8192x39x16, .f32⟩ : BufTy).Contents (Elt F) → (⟨S741x1, .i32⟩ : BufTy).Contents (Elt F) → (⟨S8192x741x16, .f32⟩ : BufTy).Contents (Elt F)),
    StableHlo.binary main_v27 main_v36 main_v37 (mulf : (⟨S8192x741x16, .f32⟩ : BufTy).Contents (Elt F) → (⟨S8192x741x16, .f32⟩ : BufTy).Contents (Elt F) → (⟨S8192x741x16, .f32⟩ : BufTy).Contents (Elt F)),
    StableHlo.nullary main_cst_9 (constant S_ .f32 0x00000000#32),
    StableHlo.binary main_v37 main_cst_9 main_v38 ((fun x v => Host.reduceAdd x v reducesTo_S8192x741x16_S8192x741_d2 h_S_) : (⟨S8192x741x16, .f32⟩ : BufTy).Contents (Elt F) → (⟨S_, .f32⟩ : BufTy).Contents (Elt F) → (⟨S8192x741, .f32⟩ : BufTy).Contents (Elt F)),
    StableHlo.binary main_v38 main_arg2 main_v39 ((fun l r => Host.dotGeneral dot_S8192x741_S741x1_S8192x1_1_0_0_1_n_n none l r) : (⟨S8192x741, .f32⟩ : BufTy).Contents (Elt F) → (⟨S741x1, .f32⟩ : BufTy).Contents (Elt F) → (⟨S8192x1, .f32⟩ : BufTy).Contents (Elt F)),
    StableHlo.binary main_v11 main_v8 main_v40 (addf : (⟨S8192x1, .f32⟩ : BufTy).Contents (Elt F) → (⟨S8192x1, .f32⟩ : BufTy).Contents (Elt F) → (⟨S8192x1, .f32⟩ : BufTy).Contents (Elt F)),
    StableHlo.binary main_v40 main_v39 main_v41 (addf : (⟨S8192x1, .f32⟩ : BufTy).Contents (Elt F) → (⟨S8192x1, .f32⟩ : BufTy).Contents (Elt F) → (⟨S8192x1, .f32⟩ : BufTy).Contents (Elt F)) ]

set_option maxRecDepth 65536 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., binary_bufs_sub .., binary_bufs_sub .., binary_bufs_sub ..⟩

/-- On every device, for any float values, from any memory with zero counters: every weakly fair execution of
    @main terminates with the result at the named stages' term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41) = Cert.ReferenceIdeal.Term.resultTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v41).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp)⟩)
    (run_seq scopedRefs_eq scopedSems_eq defs main (fun _ => ops) main_eq (fun _ => ops_sub) m ρ)

end Cert.ReferenceIdeal.RefRun

end
-- ==== Proof.RValue.lean ====
/-
  The second program's result, read index by index on the extended reals, is the specification.

  Row `b` of the result is `(1 * bias + fo b) + sum over the 741 pairs k of (0 + sum over d of e (i_k) d * e (j_k) d) * w k`,
  where `e f d` is the gathered field vector of field `f` of row `b`, and `(i_k, j_k)` is what the literal table of pairs
  holds in its row `k`. Each host operation is read at an index: the two additions and the product with the column of
  ones elementwise, the contraction with the weight column as a sum over the pairs, the reduction along the last axis as
  the initial value plus a sum over the 16 coordinates, and the gather along the field axis as the operand at the field
  the column names (read signed and clamped into 0..38). The table holds, in row `k`, the `k`-th pair `i < j < 39` in
  lexicographic order; its words are not negative, so the wrap of negative field numbers leaves them alone and the clamp
  does too.
-/
import proofs.«127290_j47021301957264_2_alg».proof.Proof.Gen.ReferenceIdeal
import proofs.«127290_j47021301957264_2_alg».proof.Proof.RTerm
import proofs.«127290_j47021301957264_2_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.Lib.StackMember
import Idealize.ShloMosaic.PureOps.Ideal.Laws

noncomputable section

open scoped BigOperators

namespace Cert.ReferenceIdeal.RefValue

open Idealize.ShloMosaic Idealize.ShloMosaic.ValueIdx Idealize.SL.Sem
open Cert.ReferenceIdeal Cert.ReferenceIdeal.Facts₀

/-! ## The gather along the field axis, read at an index -/

/-- The gather of field vectors along the field axis at `(b, k, d)`: the operand at row `b`, coordinate `d` and the field
    the index column names at `k`, read signed and clamped into `0..38`. -/
theorem gather_field_apply {α : Type} (E : S8192x39x16.Idx → α) (idx : IVec S741x1 32) (b : Fin 8192) (k : Fin 741) (d : Fin 16) :
    Host.gather gather_S8192x39x16_S741x1_S8192x741x16_02_1_n_n_1_1_8192116 E idx (ix3 b k d)
      = E (ix3 b ⟨min (idx (ix2 k (0 : Fin 1))).toInt.toNat 38, by omega⟩ d) := by
  unfold Host.gather
  congr 1
  funext a
  refine Fin.ext ?_
  show gather_S8192x39x16_S741x1_S8192x741x16_02_1_n_n_1_1_8192116.start (ix3 b k d) idx a
    + gather_S8192x39x16_S741x1_S8192x741x16_02_1_n_n_1_1_8192116.batchCoord (ix3 b k d) a
    + gather_S8192x39x16_S741x1_S8192x741x16_02_1_n_n_1_1_8192116.offCoord (ix3 b k d) a = _
  rw [GatherDims.batchCoord_eq_zero _ _ _ List.not_mem_nil, Nat.add_zero]
  have a0 : gather_S8192x39x16_S741x1_S8192x741x16_02_1_n_n_1_1_8192116.start (ix3 b k d) idx (0 : Fin 3)
      + gather_S8192x39x16_S741x1_S8192x741x16_02_1_n_n_1_1_8192116.offCoord (ix3 b k d) (0 : Fin 3) = b.val := by
    have hs : gather_S8192x39x16_S741x1_S8192x741x16_02_1_n_n_1_1_8192116.start (ix3 b k d) idx (0 : Fin 3) = 0 := by
      unfold GatherDims.start; exact dif_neg (by decide)
    have ho : gather_S8192x39x16_S741x1_S8192x741x16_02_1_n_n_1_1_8192116.offCoord (ix3 b k d) (0 : Fin 3) = b.val := by
      unfold GatherDims.offCoord; rw [dif_pos (by decide)]; rfl
    rw [hs, ho, Nat.zero_add]
  have a1 : gather_S8192x39x16_S741x1_S8192x741x16_02_1_n_n_1_1_8192116.start (ix3 b k d) idx (1 : Fin 3)
      + gather_S8192x39x16_S741x1_S8192x741x16_02_1_n_n_1_1_8192116.offCoord (ix3 b k d) (1 : Fin 3)
      = min (idx (ix2 k (0 : Fin 1))).toInt.toNat 38 := by
    have ho : gather_S8192x39x16_S741x1_S8192x741x16_02_1_n_n_1_1_8192116.offCoord (ix3 b k d) (1 : Fin 3) = 0 :=
      GatherDims.offCoord_eq_zero _ _ _ (fun h => ((GatherDims.mem_sKept _ _).mp h).1 (by decide))
    rw [ho, Nat.add_zero]
    unfold GatherDims.start
    rw [dif_pos (show (1 : Fin 3) ∈ gather_S8192x39x16_S741x1_S8192x741x16_02_1_n_n_1_1_8192116.startIndexMap by decide)]
    have hsi : gather_S8192x39x16_S741x1_S8192x741x16_02_1_n_n_1_1_8192116.siIdx (ix3 b k d)
        ⟨List.idxOf (1 : Fin 3) gather_S8192x39x16_S741x1_S8192x741x16_02_1_n_n_1_1_8192116.startIndexMap,
          List.idxOf_lt_length_iff.2 (by decide)⟩ = ix2 k (0 : Fin 1) := by
      funext c; refine Fin.ext ?_
      match c with
      | ⟨0, _⟩ => rfl
      | ⟨1, _⟩ => rfl
    rw [hsi]
    rfl
  have a2 : gather_S8192x39x16_S741x1_S8192x741x16_02_1_n_n_1_1_8192116.start (ix3 b k d) idx (2 : Fin 3)
      + gather_S8192x39x16_S741x1_S8192x741x16_02_1_n_n_1_1_8192116.offCoord (ix3 b k d) (2 : Fin 3) = d.val := by
    have hs : gather_S8192x39x16_S741x1_S8192x741x16_02_1_n_n_1_1_8192116.start (ix3 b k d) idx (2 : Fin 3) = 0 := by
      unfold GatherDims.start; exact dif_neg (by decide)
    have ho : gather_S8192x39x16_S741x1_S8192x741x16_02_1_n_n_1_1_8192116.offCoord (ix3 b k d) (2 : Fin 3) = d.val := by
      unfold GatherDims.offCoord; rw [dif_pos (by decide)]; rfl
    rw [hs, ho, Nat.zero_add]
  match a with
  | ⟨0, _⟩ => exact a0
  | ⟨1, _⟩ => exact a1
  | ⟨2, _⟩ => exact a2

/-! ## The literal table of pairs -/

/-- Row `k` of the literal table holds the `k`-th pair `i < j < 39` in lexicographic order, as 32-bit words. -/
theorem lit0_pair : ∀ k : Fin 741, lit0 ⟨2 * k.val, by omega⟩ = BitVec.ofNat 32 (Cert.Spec.pairAt k.val).1
    ∧ lit0 ⟨2 * k.val + 1, by omega⟩ = BitVec.ofNat 32 (Cert.Spec.pairAt k.val).2 := by decide +kernel

/-- Both words of a row, as one statement per column. -/
theorem lit0_fst (k : Fin 741) : lit0 ⟨2 * k.val, by omega⟩ = BitVec.ofNat 32 (Cert.Spec.pairFin k).1.val := (lit0_pair k).1
theorem lit0_snd (k : Fin 741) : lit0 ⟨2 * k.val + 1, by omega⟩ = BitVec.ofNat 32 (Cert.Spec.pairFin k).2.val := (lit0_pair k).2

/-- Column 0 of the table at `k` is the table's word at flat position `2 k`: the cast to rank 1 keeps the row-major position and
    the slice reads column 0. -/
theorem pairCol0_apply (k : Fin 741) : Term.pairCol0 (F := Ideal) (ix1 k) = lit0 ⟨2 * k.val, by omega⟩ := by
  unfold Term.pairCol0
  refine (shapeCast_apply _ shapeCasts_S741x1_S741 (ix1 k) (ix2 k (0 : Fin 1)) ?_).trans ?_
  · rw [Shape.rowMajor_val_two, Shape.rowMajor_val_one]
    show k.val * 1 + 0 = k.val
    omega
  refine (extractStridedSlice_apply _ _ slices_S741x2_S741x1_0_0 (ix2 k (0 : Fin 1)) (ix2 k (0 : Fin 2)) (fun a => ?_)).trans ?_
  · match a with
    | ⟨0, _⟩ => show k.val = 0 + k.val; omega
    | ⟨1, _⟩ => rfl
  unfold Term.pairTable
  refine congrArg lit0 (Fin.ext ?_)
  rw [Shape.rowMajor_val_two]
  show k.val * 2 + 0 = 2 * k.val
  omega

/-- Column 1 of the table at `k` is the table's word at flat position `2 k + 1`. -/
theorem pairCol1_apply (k : Fin 741) : Term.pairCol1 (F := Ideal) (ix1 k) = lit0 ⟨2 * k.val + 1, by omega⟩ := by
  unfold Term.pairCol1
  refine (shapeCast_apply _ shapeCasts_S741x1_S741 (ix1 k) (ix2 k (0 : Fin 1)) ?_).trans ?_
  · rw [Shape.rowMajor_val_two, Shape.rowMajor_val_one]
    show k.val * 1 + 0 = k.val
    omega
  refine (extractStridedSlice_apply _ _ slices_S741x2_S741x1_0_1 (ix2 k (0 : Fin 1)) (ix2 k (1 : Fin 2)) (fun a => ?_)).trans ?_
  · match a with
    | ⟨0, _⟩ => show k.val = 0 + k.val; omega
    | ⟨1, _⟩ => rfl
  unfold Term.pairTable
  refine congrArg lit0 (Fin.ext ?_)
  rw [Shape.rowMajor_val_two]
  show k.val * 2 + 1 = 2 * k.val + 1
  omega

/-! ## The wrap of negative field numbers, and the column form -/

/-- A field number below 39, as a 32-bit word, is not negative … -/
theorem word_not_neg : ∀ n : Fin 39, IntOp.cmpi .slt (BitVec.ofNat 32 n.val) 0#32 = 0#1 := by decide
/-- … and read back signed it is the number. -/
theorem word_toNat : ∀ n : Fin 39, (BitVec.ofNat 32 n.val).toInt.toNat = n.val := by decide

/-- Where the column holds a field number below 39, the wrap leaves it alone. -/
theorem wrapFields_apply (t : IVec S741 32) (k : Fin 741) (f : Fin 39) (ht : t (ix1 k) = BitVec.ofNat 32 f.val) :
    Term.wrapFields (F := Ideal) t (ix1 k) = BitVec.ofNat 32 f.val := by
  unfold Term.wrapFields
  rw [select_apply]
  have hc : cmpi .slt t (broadcastInDim S741 ![] bcast_S_S741 (constantI S_ 32 0#32)) (ix1 k) = 0#1 := by
    show IntOp.cmpi .slt (t (ix1 k)) (broadcastInDim S741 ![] bcast_S_S741 (constantI S_ 32 0#32) (ix1 k)) = 0#1
    rw [broadcastInDim_scalar_apply, constantI_apply, ht]
    exact word_not_neg f
  rw [hc, select_zero, ht]

/-- The wrapped column as a 741 x 1 array reads, at `(k, 0)`, the wrapped column at `k`. -/
theorem fieldCol_apply (t : IVec S741 32) (k : Fin 741) :
    Term.fieldCol (F := Ideal) t (ix2 k (0 : Fin 1)) = Term.wrapFields (F := Ideal) t (ix1 k) := by
  unfold Term.fieldCol
  refine broadcastInDim_apply _ bcast_S741_S741x1_0 _ (ix2 k (0 : Fin 1)) (ix1 k) (fun a => ?_)
  match a with
  | ⟨0, _⟩ =>
    show k.val = if (741 : Nat) = 1 then 0 else k.val
    exact (if_neg (by decide)).symm

/-- The field vectors of one member of each pair: where the column names field `f` at `k`, the gathered vector of `f`. -/
theorem pick_apply (E : S8192x39x16.Idx → EReal) (t : IVec S741 32) (b : Fin 8192) (k : Fin 741) (d : Fin 16) (f : Fin 39)
    (ht : t (ix1 k) = BitVec.ofNat 32 f.val) : Term.pick (F := Ideal) E t (ix3 b k d) = E (ix3 b f d) := by
  unfold Term.pick
  refine (gather_field_apply E _ b k d).trans (congrArg (fun x => E (ix3 b x d)) (Fin.ext ?_))
  show min (Term.fieldCol (F := Ideal) t (ix2 k (0 : Fin 1))).toInt.toNat 38 = f.val
  rw [fieldCol_apply, wrapFields_apply t k f ht, word_toNat f]
  have := f.isLt
  omega

/-! ## The inner products, the contraction with the weights, the bias column -/

/-- The inner product of the two field vectors of pair `k` in row `b`: the reduction along the last axis starts from zero. -/
theorem pairDots_apply (E : S8192x39x16.Idx → EReal) (b : Fin 8192) (k : Fin 741) :
    Term.pairDots (F := Ideal) E (ix2 b k)
      = ∑ d : Fin 16, E (ix3 b (Cert.Spec.pairFin k).1 d) * E (ix3 b (Cert.Spec.pairFin k).2 d) := by
  have hR : S8192x741x16.Reduces [2] S8192x741 := by decide
  unfold Term.pairDots
  show Ideal.hostReduceAdd reducesTo_S8192x741x16_S8192x741_d2 _ _ (ix2 b k) = _
  rw [Ideal.hostReduceAdd_single reducesTo_S8192x741x16_S8192x741_d2 hR]
  show Ideal.ofBits .f32 0x00000000#32 + ∑ d : Fin 16,
      (Term.pick (F := Ideal) E (Term.pairCol0 (F := Ideal)) (hR.lift (ix2 b k) d)
        * Term.pick (F := Ideal) E (Term.pairCol1 (F := Ideal)) (hR.lift (ix2 b k) d)) = _
  rw [Ideal.ofBits_zero_f32, zero_add]
  refine Finset.sum_congr rfl fun d _ => ?_
  have hl : hR.lift (ix2 b k) d = ix3 b k d := by
    funext a; refine Fin.ext ?_
    match a with
    | ⟨0, _⟩ => rfl
    | ⟨1, _⟩ => rfl
    | ⟨2, _⟩ => rfl
  rw [hl, pick_apply E _ b k d _ ((pairCol0_apply k).trans (lit0_fst k)),
    pick_apply E _ b k d _ ((pairCol1_apply k).trans (lit0_snd k))]

/-- The second-order column at row `b`: the sum over the pairs of the inner product times the pair's weight. -/
theorem secondOrder_apply (E : S8192x39x16.Idx → EReal) (a2 : S741x1.Idx → EReal) (b : Fin 8192) :
    Term.secondOrder (F := Ideal) E a2 (ix2 b (0 : Fin 1))
      = ∑ k : Fin 741, Term.pairDots (F := Ideal) E (ix2 b k) * a2 (ix2 k (0 : Fin 1)) := by
  unfold Term.secondOrder
  exact StackMember.dotGeneral_plain_apply none (Term.pairDots (F := Ideal) E) a2 b (0 : Fin 1)

/-- The bias column reads one times the bias everywhere, which is the bias. -/
theorem biasCol_apply (a4 : S_.Idx → EReal) (i : S8192x1.Idx) : Term.biasCol (F := Ideal) a4 i = a4 ix0 := by
  unfold Term.biasCol
  show (broadcastInDim S8192x1 ![] bcast_S_S8192x1 (constant (F := Ideal) S_ .f32 0x3F800000#32)) i
    * (broadcastInDim S8192x1 ![] bcast_S_S8192x1 a4) i = _
  rw [broadcastInDim_scalar_apply, broadcastInDim_scalar_apply, constant_apply, Ideal.ofBits_one_f32, one_mul]

/-! ## The result -/

/-- The second program's result is the specification of the gathered field vectors, the first-order column, the pair
    weights and the bias. -/
theorem resultTerm_eq (a0 : (⟨S8192x39, .i32⟩ : BufTy).Contents (Elt Ideal)) (a1 : (⟨S1000000x16, .f32⟩ : BufTy).Contents (Elt Ideal)) (a2 : (⟨S741x1, .f32⟩ : BufTy).Contents (Elt Ideal)) (a3 : (⟨S1000000, .f32⟩ : BufTy).Contents (Elt Ideal)) (a4 : (⟨S_, .f32⟩ : BufTy).Contents (Elt Ideal)) :
    Cert.ReferenceIdeal.Term.resultTerm (F := Ideal) a0 a1 a2 a3 a4
      = Cert.Spec.result (Cert.ReferenceIdeal.Term.fieldEmb (F := Ideal) a1 a0) (Cert.ReferenceIdeal.Term.firstOrder (F := Ideal) a3 a0) a2 a4 := by
  unfold Term.resultTerm
  generalize Term.fieldEmb (F := Ideal) a1 a0 = E
  generalize Term.firstOrder (F := Ideal) a3 a0 = FO
  funext i
  obtain ⟨b, z, rfl⟩ : ∃ (b : Fin 8192) (z : Fin 1), i = ix2 b z := ⟨i 0, i 1, eq_ix2 i⟩
  obtain rfl : z = 0 := Subsingleton.elim _ _
  show (Term.biasCol (F := Ideal) a4 (ix2 b (0 : Fin 1)) + FO (ix2 b (0 : Fin 1)))
    + Term.secondOrder (F := Ideal) E a2 (ix2 b (0 : Fin 1)) = _
  rw [biasCol_apply, secondOrder_apply]
  show _ = Cert.Spec.row (fun f d => E (ix3 b f d)) (FO (ix2 b (0 : Fin 1))) (fun k => a2 (ix2 k (0 : Fin 1))) (a4 ix0)
  rw [← Cert.Spec.row_comm]
  unfold Cert.Spec.pairSum
  exact congrArg _ (Finset.sum_congr rfl fun k _ => by rw [pairDots_apply])

end Cert.ReferenceIdeal.RefValue

end
-- ==== Proof.Shared.lean ====
/-
  The two programs gather the field vectors and form the first-order column by the same host operations of the same
  arguments: as functions of the argument arrays the two spellings are one.
-/
import proofs.«127290_j47021301957264_2_alg».proof.Proof.KTerm
import proofs.«127290_j47021301957264_2_alg».proof.Proof.RTerm
import Idealize.ShloMosaic.PureOps.Ideal

noncomputable section

namespace Cert.Shared

open Idealize.ShloMosaic Idealize.SL.Sem

/-- The gathered field vectors of the two programs are the same function of the table and the row numbers. -/
theorem fieldEmb_eq (a1 : (⟨Cert.KernelIdeal.S1000000x16, .f32⟩ : BufTy).Contents (Elt Ideal)) (a0 : (⟨Cert.KernelIdeal.S8192x39, .i32⟩ : BufTy).Contents (Elt Ideal)) :
    Cert.ReferenceIdeal.Term.fieldEmb (F := Ideal) a1 a0 = Cert.KernelIdeal.Term.fieldEmb (F := Ideal) a1 a0 := rfl

/-- The first-order columns of the two programs are the same function of the linear weights and the row numbers. -/
theorem firstOrder_eq (a3 : (⟨Cert.KernelIdeal.S1000000, .f32⟩ : BufTy).Contents (Elt Ideal)) (a0 : (⟨Cert.KernelIdeal.S8192x39, .i32⟩ : BufTy).Contents (Elt Ideal)) :
    Cert.ReferenceIdeal.Term.firstOrder (F := Ideal) a3 a0 = Cert.KernelIdeal.Term.firstOrder (F := Ideal) a3 a0 := rfl

end Cert.Shared

end
-- ==== Proof.lean ====
/-
  The two programs compute, for each of 8192 batch rows, a field-weighted second-order interaction of 39 gathered
  embedding vectors plus a first-order term and a bias.
  The first program scatters the 741 learned pair weights into a 39 x 39 matrix (the weight of the pair i < j in slot
  (i, j), zero elsewhere), and on each block of 256 rows forms the whole 39 x 39 matrix of inner products of the row's
  field vectors, multiplies it entry by entry with the weight matrix, sums over both axes, and adds the row's first-order
  term; the bias is added to the whole column afterwards.
  The second program gathers, for each of the 741 pairs i < j in lexicographic order, the two field vectors, takes
  their inner product, contracts the 741 products with the learned weights, and adds bias and first-order term.
  On the extended reals the two results are equal entry by entry: the entries of the weight matrix that no pair names
  are zero and a product with zero is zero, the 741 pairs are distinct, so the sum over all ordered pairs of fields is
  the sum over the listed pairs (Spec.lean, gramSum_eq_pairSum), and the three summands may be added in either order.
  Nothing here needs the inputs finite. The gathered field vectors and the first-order column are formed by the same
  host operations in both programs and enter only as shared inputs.
  Modules: Spec (the pairs, the two sums, the law), KTerm / RTerm (each program's host operations as named stages),
  KHost (what the region finds in its input arrays), KPayload (the body's stored value at a row), KBlocks (from the 32
  blocks to the output array), KWeights (the weight matrix at a slot), KValue (blocks plus bias is the specification),
  KRun (the first program's run), RRun (the second program's run), RValue (its result term is the specification),
  Shared (the shared stages are one function).
-/
import proofs.«127290_j47021301957264_2_alg».proof.Defs
import proofs.«127290_j47021301957264_2_alg».proof.Proof.Gen.Kernel
import proofs.«127290_j47021301957264_2_alg».proof.Proof.Gen.Kernel.Frame
import proofs.«127290_j47021301957264_2_alg».proof.Proof.Gen.KernelIdeal
import proofs.«127290_j47021301957264_2_alg».proof.Proof.Gen.KernelIdeal.Frame
import proofs.«127290_j47021301957264_2_alg».proof.Proof.Gen.ReferenceIdeal
import proofs.«127290_j47021301957264_2_alg».proof.Proof.Gen.Pre_finite_inputs
import proofs.«127290_j47021301957264_2_alg».proof.Proof.KRun
import proofs.«127290_j47021301957264_2_alg».proof.Proof.RRun
import proofs.«127290_j47021301957264_2_alg».proof.Proof.RValue
import proofs.«127290_j47021301957264_2_alg».proof.Proof.Shared
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The second program's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both programs end with the specification's result of the gathered field vectors, the first-order column, the pair
    weights and the bias; the arguments agree, and the shared stages are one function of them. -/
theorem algebraic : Cert.algebraic_KernelIdeal_ReferenceIdeal := by
  intro m ρ m' ρ' _ hagree
  refine ⟨fun c => Cert.Spec.result
      (Cert.KernelIdeal.Term.fieldEmb (m ((c.tc : Thread Cert.KernelIdeal.nD Cert.KernelIdeal.τ).loc Cert.KernelIdeal.main_arg1)) (m ((c.tc : Thread Cert.KernelIdeal.nD Cert.KernelIdeal.τ).loc Cert.KernelIdeal.main_arg0)))
      (Cert.KernelIdeal.Term.firstOrder (m ((c.tc : Thread Cert.KernelIdeal.nD Cert.KernelIdeal.τ).loc Cert.KernelIdeal.main_arg3)) (m ((c.tc : Thread Cert.KernelIdeal.nD Cert.KernelIdeal.τ).loc Cert.KernelIdeal.main_arg0)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg4)),
    Cert.KernelIdeal.Run.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.resultTerm_eq, (hagree c).1, (hagree c).2.1, (hagree c).2.2.1, (hagree c).2.2.2.1,
    (hagree c).2.2.2.2, Cert.Shared.fieldEmb_eq, Cert.Shared.firstOrder_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
